-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x1, .f32⟩
  | .hbm, ⟨53, _⟩ => ⟨S_, .f32⟩
  | .hbm, ⟨54, _⟩ => ⟨S100000x1, .f32⟩
  | .hbm, ⟨55, _⟩ => ⟨S1700000x1, .i32⟩
  | .hbm, ⟨56, _⟩ => ⟨S100000x1, .f32⟩
  | .hbm, ⟨57, _⟩ => ⟨S1x1, .f32⟩
  | .hbm, ⟨58, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.RefVal.lean ====
/-
  The plain program's host lines in seven parts, and the functions the parts compute.

  The first seven lines form the source and target words of the messages; the next fourteen the degrees and the
  normalization coefficients; the next nineteen the per-message normalization (the product of the coefficients of a
  message's source and target rows); then the two layers: a dense product, its rows gathered at the source words and
  scaled by the normalization, added up at the target words, plus the bias (and, after the first layer, the
  rectifier).
-/
import proofs.«114599_j73169062855340_2_alg».proof.Proof.RefRun
import Idealize.ShloMosaic.Lib.StableHlo.Run
import Idealize.ShloMosaic.PureOps.Ideal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

section Lists
variable {F : FTy → Type} [FloatOps F]

/-- The seven lines that form the words. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The lines of the degrees, their comparison with zero and their inverse square roots. -/
abbrev opsB1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The outlined selection of the coefficients. -/
abbrev opsB2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The lines of the per-message normalization. -/
abbrev opsC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The lines of the first layer up to the bias. -/
abbrev opsD1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The outlined rectifier. -/
abbrev opsD2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The lines of the second layer. -/
abbrev opsE : List (HloOp τ sig (Elt F)) :=
  [ binary main_v47 main_arg4 main_v48 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    binary main_v55 main_v56 main_v57 (mulf : (⟨S1700000x1, .f32⟩ : BufTy).Contents (Elt F) → (⟨S1700000x1, .f32⟩ : BufTy).Contents (Elt F) → (⟨S1700000x1, .f32⟩ : BufTy).Contents (Elt F)),
    nullary main_cst_11 (constant S_ .f32 0x00000000#32),
    unary main_cst_11 main_v58 (broadcastInDim S100000x1 ![] bcast_S_S100000x1 : (⟨S_, .f32⟩ : BufTy).Contents (Elt F) → (⟨S100000x1, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    unary main_arg5 main_v61 (broadcastInDim S1x1 ![1] bcast_S1_S1x1_1 : (⟨S1, .f32⟩ : BufTy).Contents (Elt F) → (⟨S1x1, .f32⟩ : BufTy).Contents (Elt F)),
    unary main_v61 main_v62 (broadcastInDim S100000x1 ![0, 1] bcast_S1x1_S100000x1_0_1 : (⟨S1x1, .f32⟩ : BufTy).Contents (Elt F) → (⟨S100000x1, .f32⟩ : BufTy).Contents (Elt F)),
    binary main_v60 main_v62 main_v63 (addf : (⟨S100000x1, .f32⟩ : BufTy).Contents (Elt F) → (⟨S100000x1, .f32⟩ : BufTy).Contents (Elt F) → (⟨S100000x1, .f32⟩ : BufTy).Contents (Elt F)) ]

end Lists

/-- The program's lines are the seven parts in order. -/
theorem ops_split : (RunP.ops (F := Ideal)) = opsA (F := Ideal) ++ (opsB1 (F := Ideal) ++ (opsB2 (F := Ideal) ++ (opsC (F := Ideal)
    ++ (opsD1 (F := Ideal) ++ (opsD2 (F := Ideal) ++ opsE (F := Ideal)))))) := rfl

/-- The contents after two parts in order. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The parts' functions -/

/-- The source words: row 0 of the edge list, then the node numbers. -/
def srcW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0
/-- The target words: row 1 of the edge list, then the node numbers. -/
def dstW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0
/-- A vector of words with a negative word wrapped by the number of nodes. -/
def wrapW (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
/-- A vector of words as a column. -/
def colW (v : IVec S1700000 32) : IVec S1700000x1 32 := broadcastInDim S1700000x1 ![0] bcast_S1700000_S1700000x1_0 v
/-- The degrees: ones added up at the target words. -/
def degV (dst : IVec S1700000 32) : FVec Ideal S100000 .f32 :=
  Host.scatterAdd scatter_S100000_S1700000x1_S1700000_n_0_0_1 (broadcastInDim S100000 ![] bcast_S_S100000 (constant S_ .f32 0x00000000#32))
    (colW dst) (broadcastInDim S1700000 ![] bcast_S_S1700000 (constant S_ .f32 0x3F800000#32))
/-- The coefficients: the inverse square root of a positive degree, zero otherwise. -/
def disV (dst : IVec S1700000 32) : FVec Ideal S100000 .f32 :=
  select (cmpf .ogt (degV dst) (broadcastInDim S100000 ![] bcast_S_S100000 (constant S_ .f32 0x00000000#32))) (Host.rsqrt (degV dst))
    (broadcastInDim S100000 ![] bcast_S_S100000 (constant S_ .f32 0x00000000#32))
/-- The normalization of every message: the coefficient of its source row times that of its target row. -/
def normV (dis : FVec Ideal S100000 .f32) (src dst : IVec S1700000 32) : FVec Ideal S1700000 .f32 :=
  mulf (Host.gather gather_S100000_S1700000x1_S1700000_n_0_n_n_0_1_1 dis (colW (wrapW src)))
    (Host.gather gather_S100000_S1700000x1_S1700000_n_0_n_n_0_1_1 dis (colW (wrapW dst)))
/-- The first layer. -/
def layer1 (x : FVec Ideal S100000x128 .f32) (w1 : FVec Ideal S128x128 .f32) (b1 : FVec Ideal S128 .f32) (src dst : IVec S1700000 32)
    (nrm : FVec Ideal S1700000 .f32) : FVec Ideal S100000x128 .f32 :=
  maximumf
    (addf
      (Host.scatterAdd scatter_S100000x128_S1700000x1_S1700000x128_1_0_0_1
        (broadcastInDim S100000x128 ![] bcast_S_S100000x128 (constant S_ .f32 0x00000000#32)) (colW dst)
        (mulf (Host.gather gather_S100000x128_S1700000x1_S1700000x128_1_0_n_n_0_1_1128
            (Host.dotGeneral dot_S100000x128_S128x128_S100000x128_1_0_0_1_n_n none x w1) (colW (wrapW src)))
          (broadcastInDim S1700000x128 ![0, 1] bcast_S1700000x1_S1700000x128_0_1
            (broadcastInDim S1700000x1 ![0] bcast_S1700000_S1700000x1_0 nrm))))
      (broadcastInDim S100000x128 ![0, 1] bcast_S1x128_S100000x128_0_1 (broadcastInDim S1x128 ![1] bcast_S128_S1x128_1 b1)))
    (broadcastInDim S100000x128 ![] bcast_S_S100000x128 (constant S_ .f32 0x00000000#32))
/-- The second layer. -/
def layer2 (h : FVec Ideal S100000x128 .f32) (w2 : FVec Ideal S128x1 .f32) (b2 : FVec Ideal S1 .f32) (src dst : IVec S1700000 32)
    (nrm : FVec Ideal S1700000 .f32) : FVec Ideal S100000x1 .f32 :=
  addf
    (Host.scatterAdd scatter_S100000x1_S1700000x1_S1700000x1_1_0_0_1
      (broadcastInDim S100000x1 ![] bcast_S_S100000x1 (constant S_ .f32 0x00000000#32)) (colW dst)
      (mulf (Host.gather gather_S100000x1_S1700000x1_S1700000x1_1_0_n_n_0_1_11
          (Host.dotGeneral dot_S100000x128_S128x1_S100000x1_1_0_0_1_n_n none h w2) (colW (wrapW src)))
        (broadcastInDim S1700000x1 ![0] bcast_S1700000_S1700000x1_0 nrm)))
    (broadcastInDim S100000x1 ![0, 1] bcast_S1x1_S100000x1_0_1 (broadcastInDim S1x1 ![1] bcast_S1_S1x1_1 b2))

/-- The program's function of its argument arrays. -/
def value (x : FVec Ideal S100000x128 .f32) (ei : IVec S2x1600000 32) (w1 : FVec Ideal S128x128 .f32) (b1 : FVec Ideal S128 .f32)
    (w2 : FVec Ideal S128x1 .f32) (b2 : FVec Ideal S1 .f32) : FVec Ideal S100000x1 .f32 :=
  layer2 (layer1 x w1 b1 (srcW ei) (dstW ei) (normV (disV (dstW ei)) (srcW ei) (dstW ei))) w2 b2 (srcW ei) (dstW ei)
    (normV (disV (dstW ei)) (srcW ei) (dstW ei))

end Cert.ReferenceIdeal.HostLines

end
-- ==== Proof.RefSegA.lean ====
/-
  The plain program's first seven lines: the source and target words are the edge list's two rows, each followed by
  the node numbers; the argument arrays are not touched.
-/
import proofs.«114599_j73169062855340_2_alg».proof.Proof.RefVal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

/-- No operation of a literal line writes the buffer: decided operation by operation. -/
local macro "no_write" : tactic =>
  `(tactic| (refine List.forall_iff_forall_mem.mp ?_
             simp only [opsA, opsB1, opsB2, opsC, opsD1, opsD2, opsE, List.Forall, nullary_writes, unary_writes, binary_writes, ternary_writes, quaternary_writes, reshape_writes, binaryIndexed_writes, Finset.mem_singleton]
             repeat' apply And.intro
             all_goals exact devRef_ne_of_ne (by decide)))

variable (W : Valuation τ sig (Elt Ideal))

set_option maxRecDepth 1000000 in
theorem segA_src : after (opsA (F := Ideal)) W (Proc.devRef .tc main_v3) = srcW (W (Proc.devRef .tc main_arg1)) := by
  after_results; rfl
set_option maxRecDepth 1000000 in
theorem segA_dst : after (opsA (F := Ideal)) W (Proc.devRef .tc main_v6) = dstW (W (Proc.devRef .tc main_arg1)) := by
  after_results; rfl
theorem keepA_arg0 : after (opsA (F := Ideal)) W (Proc.devRef .tc main_arg0) = W (Proc.devRef .tc main_arg0) :=
  after_of_forall_not_mem _ _ (by no_write)
theorem keepA_arg2 : after (opsA (F := Ideal)) W (Proc.devRef .tc main_arg2) = W (Proc.devRef .tc main_arg2) :=
  after_of_forall_not_mem _ _ (by no_write)
theorem keepA_arg3 : after (opsA (F := Ideal)) W (Proc.devRef .tc main_arg3) = W (Proc.devRef .tc main_arg3) :=
  after_of_forall_not_mem _ _ (by no_write)
theorem keepA_arg4 : after (opsA (F := Ideal)) W (Proc.devRef .tc main_arg4) = W (Proc.devRef .tc main_arg4) :=
  after_of_forall_not_mem _ _ (by no_write)
theorem keepA_arg5 : after (opsA (F := Ideal)) W (Proc.devRef .tc main_arg5) = W (Proc.devRef .tc main_arg5) :=
  after_of_forall_not_mem _ _ (by no_write)

end Cert.ReferenceIdeal.HostLines

end
-- ==== Proof.RefSegB.lean ====
/-
  The plain program's lines of the degrees and coefficients, from contents that hold the target words: the degrees are
  ones added up at the target words; the outlined selection picks their inverse square root where they are positive
  and zero elsewhere.
-/
import proofs.«114599_j73169062855340_2_alg».proof.Proof.RefVal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

/-- No operation of a literal line writes the buffer: decided operation by operation. -/
local macro "no_write" : tactic =>
  `(tactic| (refine List.forall_iff_forall_mem.mp ?_
             simp only [opsA, opsB1, opsB2, opsC, opsD1, opsD2, opsE, List.Forall, nullary_writes, unary_writes, binary_writes, ternary_writes, quaternary_writes, reshape_writes, binaryIndexed_writes, Finset.mem_singleton]
             repeat' apply And.intro
             all_goals exact devRef_ne_of_ne (by decide)))

variable (W : Valuation τ sig (Elt Ideal))

theorem segB1_cmp : after (opsB1 (F := Ideal)) W (Proc.devRef .tc main_v12)
    = cmpf .ogt (degV (W (Proc.devRef .tc main_v6))) (broadcastInDim S100000 ![] bcast_S_S100000 (constant S_ .f32 0x00000000#32)) := by
  after_results
  unfold degV colW
  with_reducible rfl
theorem segB1_rsqrt : after (opsB1 (F := Ideal)) W (Proc.devRef .tc main_v13) = Host.rsqrt (degV (W (Proc.devRef .tc main_v6))) := by
  after_results
  unfold degV colW
  with_reducible rfl
theorem segB1_zero : after (opsB1 (F := Ideal)) W (Proc.devRef .tc main_cst_2) = constant (F := Ideal) S_ .f32 0x00000000#32 := by
  after_results
theorem segB2_where : after (opsB2 (F := Ideal)) W (Proc.devRef .tc main_v14)
    = select (W (Proc.devRef .tc main_v12)) (W (Proc.devRef .tc main_v13))
        (broadcastInDim S100000 ![] bcast_S_S100000 (W (Proc.devRef .tc main_cst_2))) := by
  after_results
  rfl
/-- The coefficients from contents that hold the target words. -/
theorem segB_dis : after (opsB2 (F := Ideal)) (after (opsB1 (F := Ideal)) W) (Proc.devRef .tc main_v14) = disV (W (Proc.devRef .tc main_v6)) := by
  rw [segB2_where, segB1_cmp, segB1_rsqrt, segB1_zero]
  rfl
theorem keepB1_v3 : after (opsB1 (F := Ideal)) W (Proc.devRef .tc main_v3) = W (Proc.devRef .tc main_v3) :=
  after_of_forall_not_mem _ _ (by no_write)
theorem keepB1_v6 : after (opsB1 (F := Ideal)) W (Proc.devRef .tc main_v6) = W (Proc.devRef .tc main_v6) :=
  after_of_forall_not_mem _ _ (by no_write)
theorem keepB1_arg0 : after (opsB1 (F := Ideal)) W (Proc.devRef .tc main_arg0) = W (Proc.devRef .tc main_arg0) :=
  after_of_forall_not_mem _ _ (by no_write)
theorem keepB1_arg2 : after (opsB1 (F := Ideal)) W (Proc.devRef .tc main_arg2) = W (Proc.devRef .tc main_arg2) :=
  after_of_forall_not_mem _ _ (by no_write)
theorem keepB1_arg3 : after (opsB1 (F := Ideal)) W (Proc.devRef .tc main_arg3) = W (Proc.devRef .tc main_arg3) :=
  after_of_forall_not_mem _ _ (by no_write)
theorem keepB1_arg4 : after (opsB1 (F := Ideal)) W (Proc.devRef .tc main_arg4) = W (Proc.devRef .tc main_arg4) :=
  after_of_forall_not_mem _ _ (by no_write)
theorem keepB1_arg5 : after (opsB1 (F := Ideal)) W (Proc.devRef .tc main_arg5) = W (Proc.devRef .tc main_arg5) :=
  after_of_forall_not_mem _ _ (by no_write)
theorem keepB2_v3 : after (opsB2 (F := Ideal)) W (Proc.devRef .tc main_v3) = W (Proc.devRef .tc main_v3) :=
  after_of_forall_not_mem _ _ (by no_write)
theorem keepB2_v6 : after (opsB2 (F := Ideal)) W (Proc.devRef .tc main_v6) = W (Proc.devRef .tc main_v6) :=
  after_of_forall_not_mem _ _ (by no_write)
theorem keepB2_arg0 : after (opsB2 (F := Ideal)) W (Proc.devRef .tc main_arg0) = W (Proc.devRef .tc main_arg0) :=
  after_of_forall_not_mem _ _ (by no_write)
theorem keepB2_arg2 : after (opsB2 (F := Ideal)) W (Proc.devRef .tc main_arg2) = W (Proc.devRef .tc main_arg2) :=
  after_of_forall_not_mem _ _ (by no_write)
theorem keepB2_arg3 : after (opsB2 (F := Ideal)) W (Proc.devRef .tc main_arg3) = W (Proc.devRef .tc main_arg3) :=
  after_of_forall_not_mem _ _ (by no_write)
theorem keepB2_arg4 : after (opsB2 (F := Ideal)) W (Proc.devRef .tc main_arg4) = W (Proc.devRef .tc main_arg4) :=
  after_of_forall_not_mem _ _ (by no_write)
theorem keepB2_arg5 : after (opsB2 (F := Ideal)) W (Proc.devRef .tc main_arg5) = W (Proc.devRef .tc main_arg5) :=
  after_of_forall_not_mem _ _ (by no_write)

end Cert.ReferenceIdeal.HostLines

end
-- ==== Proof.RefSegC.lean ====
/-
  The plain program's lines of the per-message normalization, from contents that hold the words and the coefficients.
-/
import proofs.«114599_j73169062855340_2_alg».proof.Proof.RefVal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

/-- No operation of a literal line writes the buffer: decided operation by operation. -/
local macro "no_write" : tactic =>
  `(tactic| (refine List.forall_iff_forall_mem.mp ?_
             simp only [opsA, opsB1, opsB2, opsC, opsD1, opsD2, opsE, List.Forall, nullary_writes, unary_writes, binary_writes, ternary_writes, quaternary_writes, reshape_writes, binaryIndexed_writes, Finset.mem_singleton]
             repeat' apply And.intro
             all_goals exact devRef_ne_of_ne (by decide)))

variable (W : Valuation τ sig (Elt Ideal))

set_option maxHeartbeats 4000000 in
theorem segC_norm : after (opsC (F := Ideal)) W (Proc.devRef .tc main_v29)
    = normV (W (Proc.devRef .tc main_v14)) (W (Proc.devRef .tc main_v3)) (W (Proc.devRef .tc main_v6)) := by
  after_results
  unfold normV colW wrapW
  with_reducible rfl
theorem keepC_v3 : after (opsC (F := Ideal)) W (Proc.devRef .tc main_v3) = W (Proc.devRef .tc main_v3) :=
  after_of_forall_not_mem _ _ (by no_write)
theorem keepC_v6 : after (opsC (F := Ideal)) W (Proc.devRef .tc main_v6) = W (Proc.devRef .tc main_v6) :=
  after_of_forall_not_mem _ _ (by no_write)
theorem keepC_arg0 : after (opsC (F := Ideal)) W (Proc.devRef .tc main_arg0) = W (Proc.devRef .tc main_arg0) :=
  after_of_forall_not_mem _ _ (by no_write)
theorem keepC_arg2 : after (opsC (F := Ideal)) W (Proc.devRef .tc main_arg2) = W (Proc.devRef .tc main_arg2) :=
  after_of_forall_not_mem _ _ (by no_write)
theorem keepC_arg3 : after (opsC (F := Ideal)) W (Proc.devRef .tc main_arg3) = W (Proc.devRef .tc main_arg3) :=
  after_of_forall_not_mem _ _ (by no_write)
theorem keepC_arg4 : after (opsC (F := Ideal)) W (Proc.devRef .tc main_arg4) = W (Proc.devRef .tc main_arg4) :=
  after_of_forall_not_mem _ _ (by no_write)
theorem keepC_arg5 : after (opsC (F := Ideal)) W (Proc.devRef .tc main_arg5) = W (Proc.devRef .tc main_arg5) :=
  after_of_forall_not_mem _ _ (by no_write)

end Cert.ReferenceIdeal.HostLines

end
-- ==== Proof.RefSegD.lean ====
/-
  The plain program's lines of the first layer, from contents that hold the words and the normalization: the dense
  product's rows gathered at the source words, scaled by the normalization and added up at the target words, plus the
  bias; then the outlined rectifier.
-/
import proofs.«114599_j73169062855340_2_alg».proof.Proof.RefVal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

/-- No operation of a literal line writes the buffer: decided operation by operation. -/
local macro "no_write" : tactic =>
  `(tactic| (refine List.forall_iff_forall_mem.mp ?_
             simp only [opsA, opsB1, opsB2, opsC, opsD1, opsD2, opsE, List.Forall, nullary_writes, unary_writes, binary_writes, ternary_writes, quaternary_writes, reshape_writes, binaryIndexed_writes, Finset.mem_singleton]
             repeat' apply And.intro
             all_goals exact devRef_ne_of_ne (by decide)))

variable (W : Valuation τ sig (Elt Ideal))

/-- The first layer before the rectifier. -/
def pre1 (x : FVec Ideal S100000x128 .f32) (w1 : FVec Ideal S128x128 .f32) (b1 : FVec Ideal S128 .f32) (src dst : IVec S1700000 32)
    (nrm : FVec Ideal S1700000 .f32) : FVec Ideal S100000x128 .f32 :=
  addf
    (Host.scatterAdd scatter_S100000x128_S1700000x1_S1700000x128_1_0_0_1
      (broadcastInDim S100000x128 ![] bcast_S_S100000x128 (constant S_ .f32 0x00000000#32)) (colW dst)
      (mulf (Host.gather gather_S100000x128_S1700000x1_S1700000x128_1_0_n_n_0_1_1128
          (Host.dotGeneral dot_S100000x128_S128x128_S100000x128_1_0_0_1_n_n none x w1) (colW (wrapW src)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b1))

set_option maxHeartbeats 4000000 in
theorem segD1_pre : after (opsD1 (F := Ideal)) W (Proc.devRef .tc main_v46)
    = pre1 (W (Proc.devRef .tc main_arg0)) (W (Proc.devRef .tc main_arg2)) (W (Proc.devRef .tc main_arg3))
        (W (Proc.devRef .tc main_v3)) (W (Proc.devRef .tc main_v6)) (W (Proc.devRef .tc main_v29)) := by
  after_results
  unfold pre1 colW wrapW
  with_reducible rfl
theorem segD2_relu : after (opsD2 (F := Ideal)) W (Proc.devRef .tc main_v47)
    = (maximumf (W (Proc.devRef .tc main_v46)) (broadcastInDim S100000x128 ![] bcast_S_S100000x128 (constant S_ .f32 0x00000000#32))
        : FVec Ideal S100000x128 .f32) := by
  after_results
  rfl
/-- The hidden layer from contents that hold the words and the normalization. -/
theorem segD_layer : after (opsD2 (F := Ideal)) (after (opsD1 (F := Ideal)) W) (Proc.devRef .tc main_v47)
    = layer1 (W (Proc.devRef .tc main_arg0)) (W (Proc.devRef .tc main_arg2)) (W (Proc.devRef .tc main_arg3))
        (W (Proc.devRef .tc main_v3)) (W (Proc.devRef .tc main_v6)) (W (Proc.devRef .tc main_v29)) := by
  rw [segD2_relu, segD1_pre]
  rfl
theorem keepD1_v3 : after (opsD1 (F := Ideal)) W (Proc.devRef .tc main_v3) = W (Proc.devRef .tc main_v3) :=
  after_of_forall_not_mem _ _ (by no_write)
theorem keepD1_v6 : after (opsD1 (F := Ideal)) W (Proc.devRef .tc main_v6) = W (Proc.devRef .tc main_v6) :=
  after_of_forall_not_mem _ _ (by no_write)
theorem keepD1_v29 : after (opsD1 (F := Ideal)) W (Proc.devRef .tc main_v29) = W (Proc.devRef .tc main_v29) :=
  after_of_forall_not_mem _ _ (by no_write)
theorem keepD1_arg4 : after (opsD1 (F := Ideal)) W (Proc.devRef .tc main_arg4) = W (Proc.devRef .tc main_arg4) :=
  after_of_forall_not_mem _ _ (by no_write)
theorem keepD1_arg5 : after (opsD1 (F := Ideal)) W (Proc.devRef .tc main_arg5) = W (Proc.devRef .tc main_arg5) :=
  after_of_forall_not_mem _ _ (by no_write)
theorem keepD2_v3 : after (opsD2 (F := Ideal)) W (Proc.devRef .tc main_v3) = W (Proc.devRef .tc main_v3) :=
  after_of_forall_not_mem _ _ (by no_write)
theorem keepD2_v6 : after (opsD2 (F := Ideal)) W (Proc.devRef .tc main_v6) = W (Proc.devRef .tc main_v6) :=
  after_of_forall_not_mem _ _ (by no_write)
theorem keepD2_v29 : after (opsD2 (F := Ideal)) W (Proc.devRef .tc main_v29) = W (Proc.devRef .tc main_v29) :=
  after_of_forall_not_mem _ _ (by no_write)
theorem keepD2_arg4 : after (opsD2 (F := Ideal)) W (Proc.devRef .tc main_arg4) = W (Proc.devRef .tc main_arg4) :=
  after_of_forall_not_mem _ _ (by no_write)
theorem keepD2_arg5 : after (opsD2 (F := Ideal)) W (Proc.devRef .tc main_arg5) = W (Proc.devRef .tc main_arg5) :=
  after_of_forall_not_mem _ _ (by no_write)

end Cert.ReferenceIdeal.HostLines

end
-- ==== Proof.RefSegE.lean ====
/-
  The plain program's lines of the second layer, from contents that hold the words, the normalization and the
  hidden layer.
-/
import proofs.«114599_j73169062855340_2_alg».proof.Proof.RefVal

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

/-- No operation of a literal line writes the buffer: decided operation by operation. -/
local macro "no_write" : tactic =>
  `(tactic| (refine List.forall_iff_forall_mem.mp ?_
             simp only [opsA, opsB1, opsB2, opsC, opsD1, opsD2, opsE, List.Forall, nullary_writes, unary_writes, binary_writes, ternary_writes, quaternary_writes, reshape_writes, binaryIndexed_writes, Finset.mem_singleton]
             repeat' apply And.intro
             all_goals exact devRef_ne_of_ne (by decide)))

variable (W : Valuation τ sig (Elt Ideal))

set_option maxHeartbeats 4000000 in
theorem segE_layer : after (opsE (F := Ideal)) W (Proc.devRef .tc main_v63)
    = layer2 (W (Proc.devRef .tc main_v47)) (W (Proc.devRef .tc main_arg4)) (W (Proc.devRef .tc main_arg5))
        (W (Proc.devRef .tc main_v3)) (W (Proc.devRef .tc main_v6)) (W (Proc.devRef .tc main_v29)) := by
  after_results
  unfold layer2 colW wrapW
  with_reducible rfl

end Cert.ReferenceIdeal.HostLines

end
-- ==== Proof.RefLines.lean ====
/-
  The plain program's lines assembled: from any contents, the result buffer after all the lines is the program's
  function of the six argument buffers. Each part is read from the contents the earlier parts leave; a buffer that a
  part does not write is read back through it unchanged.
-/
import proofs.«114599_j73169062855340_2_alg».proof.Proof.RefSegA
import proofs.«114599_j73169062855340_2_alg».proof.Proof.RefSegB
import proofs.«114599_j73169062855340_2_alg».proof.Proof.RefSegC
import proofs.«114599_j73169062855340_2_alg».proof.Proof.RefSegD
import proofs.«114599_j73169062855340_2_alg».proof.Proof.RefSegE

set_option maxRecDepth 16384

noncomputable section

namespace Cert.ReferenceIdeal.HostLines

open Cert.ReferenceIdeal Cert.ReferenceIdeal.Gen
open Idealize.ShloMosaic Idealize.ShloMosaic.TcCoe Idealize.SL.Sem Idealize.ShloMosaic.StableHlo

set_option maxHeartbeats 2000000 in
/-- THE RESULT of all the lines, from any contents. -/
theorem lines (W : Valuation τ sig (Elt Ideal)) : after (RunP.ops (F := Ideal)) W (Proc.devRef .tc main_v63)
    = value (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [ops_split, after_append, after_append, after_append, after_append, after_append, after_append]
  rw [segE_layer, segD_layer]
  rw [keepD2_arg4, keepD2_arg5, keepD2_v3, keepD2_v6, keepD2_v29]
  rw [keepD1_arg4, keepD1_arg5, keepD1_v3, keepD1_v6, keepD1_v29]
  rw [segC_norm]
  rw [keepC_arg0, keepC_arg2, keepC_arg3, keepC_arg4, keepC_arg5, keepC_v3, keepC_v6]
  rw [segB_dis]
  rw [keepB2_arg0, keepB2_arg2, keepB2_arg3, keepB2_arg4, keepB2_arg5, keepB2_v3, keepB2_v6]
  rw [keepB1_arg0, keepB1_arg2, keepB1_arg3, keepB1_arg4, keepB1_arg5, keepB1_v3, keepB1_v6]
  rw [segA_src, segA_dst, keepA_arg0, keepA_arg2, keepA_arg3, keepA_arg4, keepA_arg5]
  rfl

end Cert.ReferenceIdeal.HostLines

end
-- ==== Proof.KDefs.lean ====
/-
  The host lines of the tiled program and the functions they compute.

  Before the first tiled stage the program forms the source and target words of the 1 700 000 messages (the given
  edges followed by one self-loop per node), the degrees and the column of normalization coefficients. Between the
  stages it gathers the rows of the previous stage's output at the source words and adds them up at the target words.
-/
import proofs.«114599_j73169062855340_2_alg».proof.Proof.Gen.KernelIdeal.Frame
import Idealize.ShloMosaic.Lib.StableHlo.Run
import Idealize.ShloMosaic.PureOps.Ideal

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## The lines' functions -/

/-- The source words: row 0 of the edge list, then the node numbers. -/
def srcW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0
/-- The target words: row 1 of the edge list, then the node numbers. -/
def dstW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0
/-- A vector of words with a negative word wrapped by the number of nodes. -/
def wrapW (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
/-- A vector of words as a column. -/
def colW (v : IVec S1700000 32) : IVec S1700000x1 32 := broadcastInDim S1700000x1 ![0] bcast_S1700000_S1700000x1_0 v
/-- The degrees: ones added up at the target words. -/
def degV (dst : IVec S1700000 32) : FVec Ideal S100000 .f32 :=
  Host.scatterAdd scatter_S100000_S1700000x1_S1700000_n_0_0_1 (broadcastInDim S100000 ![] bcast_S_S100000 (constant S_ .f32 0x00000000#32))
    (colW dst) (broadcastInDim S1700000 ![] bcast_S_S1700000 (constant S_ .f32 0x3F800000#32))
/-- The coefficients: the inverse square root of a positive degree, zero otherwise. -/
def disV (dst : IVec S1700000 32) : FVec Ideal S100000 .f32 :=
  select (cmpf .ogt (degV dst) (broadcastInDim S100000 ![] bcast_S_S100000 (constant S_ .f32 0x00000000#32))) (Host.rsqrt (degV dst))
    (broadcastInDim S100000 ![] bcast_S_S100000 (constant S_ .f32 0x00000000#32))
/-- The coefficients as a column. -/
def disCol (dst : IVec S1700000 32) : FVec Ideal S100000x1 .f32 := broadcastInDim S100000x1 ![0] bcast_S100000_S100000x1_0 (disV dst)
/-- Rows of a 128-column table gathered at the source words and added up at the target words. -/
def agg128 (X : FVec Ideal S100000x128 .f32) (src dst : IVec S1700000 32) : FVec Ideal S100000x128 .f32 :=
  Host.scatterAdd scatter_S100000x128_S1700000x1_S1700000x128_1_0_0_1 (broadcastInDim S100000x128 ![] bcast_S_S100000x128 (constant S_ .f32 0x00000000#32))
    (colW dst) (Host.gather gather_S100000x128_S1700000x1_S1700000x128_1_0_n_n_0_1_1128 X (colW (wrapW src)))
/-- Rows of a one-column table gathered at the source words and added up at the target words. -/
def agg1 (X : FVec Ideal S100000x1 .f32) (src dst : IVec S1700000 32) : FVec Ideal S100000x1 .f32 :=
  Host.scatterAdd scatter_S100000x1_S1700000x1_S1700000x1_1_0_0_1 (broadcastInDim S100000x1 ![] bcast_S_S100000x1 (constant S_ .f32 0x00000000#32))
    (colW dst) (Host.gather gather_S100000x1_S1700000x1_S1700000x1_1_0_n_n_0_1_11 X (colW (wrapW src)))

section Lists
variable {F : FTy → Type} [FloatOps F]
/-- The first seven lines before the first stage: the words. -/
abbrev wordOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The next eleven lines: the degrees and what the coefficients are selected from. -/
abbrev degOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]
end Lists

/-- The eighteen lines are the two parts in order. -/
theorem hostOps0_split : (hostOps0 (F := Ideal)) = wordOps (F := Ideal) ++ degOps (F := Ideal) := rfl

/-- The contents after two parts in order. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The contents after the lines before the first stage. -/
abbrev afterA (W : Valuation τ sig (Elt Ideal)) : Valuation τ sig (Elt Ideal) :=
  after (hostOps0_2 (F := Ideal)) (after hostOps0_1 (after hostOps0 W))

end Cert.KernelIdeal.HostLines

end
-- ==== Proof.KWords.lean ====
/-
  The words of the tiled program: after the lines before the first stage the source and target word buffers hold
  the edge list's two rows, each followed by the node numbers.
-/
import proofs.«114599_j73169062855340_2_alg».proof.Proof.KDefs

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable (W : Valuation τ sig (Elt Ideal))

set_option maxRecDepth 1000000 in
theorem lineA_src : afterA W (Proc.devRef .tc main_v3) = srcW (W (Proc.devRef .tc main_arg1)) := by
  unfold afterA; after_results; rfl
set_option maxRecDepth 1000000 in
theorem lineA_dst : afterA W (Proc.devRef .tc main_v6) = dstW (W (Proc.devRef .tc main_arg1)) := by
  unfold afterA; after_results; rfl
set_option maxRecDepth 1000000 in
theorem words_dst : after (wordOps (F := Ideal)) W (Proc.devRef .tc main_v6) = dstW (W (Proc.devRef .tc main_arg1)) := by
  after_results; rfl

end Cert.KernelIdeal.HostLines

end
-- ==== Proof.KCoef.lean ====
/-
  The coefficient column of the tiled program, from contents that hold the target words.

  The degrees are ones added up at the target words; the comparison with zero and the inverse square root are taken
  of them; the outlined selection picks the inverse square root where the comparison holds and zero elsewhere; the
  result is spread as a column.
-/
import proofs.«114599_j73169062855340_2_alg».proof.Proof.KDefs

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable (W : Valuation τ sig (Elt Ideal))

/-- The comparison of the degrees with zero. -/
theorem deg_cmp : after (degOps (F := Ideal)) W (Proc.devRef .tc main_v12)
    = cmpf .ogt (degV (W (Proc.devRef .tc main_v6))) (broadcastInDim S100000 ![] bcast_S_S100000 (constant S_ .f32 0x00000000#32)) := by
  after_results
  unfold degV colW
  with_reducible rfl
/-- The inverse square roots of the degrees. -/
theorem deg_rsqrt : after (degOps (F := Ideal)) W (Proc.devRef .tc main_v13) = Host.rsqrt (degV (W (Proc.devRef .tc main_v6))) := by
  after_results
  unfold degV colW
  with_reducible rfl
/-- The zero the selection falls back to. -/
theorem deg_zero : after (degOps (F := Ideal)) W (Proc.devRef .tc main_cst_2) = constant (F := Ideal) S_ .f32 0x00000000#32 := by
  after_results
/-- The outlined selection, from any contents. -/
theorem where_line : after (hostOps0_1 (F := Ideal)) W (Proc.devRef .tc main_v14)
    = select (W (Proc.devRef .tc main_v12)) (W (Proc.devRef .tc main_v13))
        (broadcastInDim S100000 ![] bcast_S_S100000 (W (Proc.devRef .tc main_cst_2))) := by
  after_results
  rfl
/-- The coefficients spread as a column, from any contents. -/
theorem col_line : after (hostOps0_2 (F := Ideal)) W (Proc.devRef .tc main_v15)
    = broadcastInDim S100000x1 ![0] bcast_S100000_S100000x1_0 (W (Proc.devRef .tc main_v14)) := by
  after_results

/-- The coefficient column from contents that hold the target words. -/
theorem coef_line : after (hostOps0_2 (F := Ideal)) (after hostOps0_1 (after degOps W)) (Proc.devRef .tc main_v15)
    = disCol (W (Proc.devRef .tc main_v6)) := by
  rw [col_line, where_line, deg_cmp, deg_rsqrt, deg_zero]
  rfl

end Cert.KernelIdeal.HostLines

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.Stage0.lean ====
/-
  The first tiled stage read as one array.

  The stage walks the node axis in 20 blocks of 5000 rows. At a block it multiplies the block of features by the
  whole weight matrix (exact sums of products at the ideal values, the changes of float format being the identity)
  and scales every row by that row's coefficient. Block t of the output is therefore the restriction to rows
  5000·t … 5000·t + 4999 of ONE function of the three input arrays,
      (i, j) ↦ (∑ k, X (i, k) · W (k, j)) · d (i, 0),
  and the 20 blocks cover the array: after the stage the output array IS that function, whatever the arrays held
  when the stage was entered.
-/
import proofs.«114599_j73169062855340_2_alg».proof.Proof.Gen.KernelIdeal.Frame
import proofs.«114599_j73169062855340_2_alg».proof.Proof.LibPlainDot
import proofs.«114599_j73169062855340_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-- The stage's result as one function of its three input arrays. -/
def G (X : S100000x128.Idx → EReal) (Wt : S128x128.Idx → EReal) (d : S100000x1.Idx → EReal) : S100000x128.Idx → EReal :=
  fun i => (∑ k : Fin 128, X (ix2 (i 0) k) * Wt (ix2 k (i 1))) * d (ix2 (i 0) (0 : Fin 1))

/-- The body's value at row p, column q of a block: the product row by column, times the row's coefficient. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply]
  refine congrArg₂ (· * ·) ?_ ?_
  · exact PlainDot.matmul_zero_apply 5000 128 128 none _ _ p q
  · rw [shapeCast_self]
    exact LibKeepdims.broadcastTo_a1_ab_apply x2 _ p q

/-- The printed index maps over the grid: the row blocks move with the point, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of `G` of the arrays as the stage finds them. -/
theorem flushed_eq (c : Dev nD) (t : Fin cfg0.N) :
    (dat0 V c).flushed 3 t = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S5000x1) hz2]
  obtain ⟨e0, e1, e2, e3, e4, e5, e6, e7⟩ := idx_facts t
  have htN : t.val < 20 := t.isLt
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) p q).trans ?_
  have hr : t.val * 5000 + p.val < 100000 := by have := p.isLt; omega
  have hout : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have hx : ∀ k : Fin 128, iblk0 V c 0 t (ix2 p k) = V c main_arg0 (ix2 (⟨t.val * 5000 + p.val, hr⟩ : Fin 100000) k) := by
    intro k
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : ∀ k : Fin 128, iblk0 V c 1 t (ix2 k q) = V c main_arg2 (ix2 k q) := by
    intro k
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hd : iblk0 V c 2 t (ix2 p (0 : Fin 1)) = V c main_v15 (ix2 (⟨t.val * 5000 + p.val, hr⟩ : Fin 100000) (0 : Fin 1)) := by
    show V c main_v15 (((cfg0.win 2).blk t).view.emb (ix2 p (0 : Fin 1))) = _
    refine congrArg (V c main_v15) ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  rw [View.read_apply, hout, hd]
  simp only [hx, hw]
  rfl

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The blocks cover the output array: row r lies in block r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the stage. -/
theorem final (c : Dev nD) :
    (dat0 V c).arrAt 3 cfg0.N = G (V c main_arg0) (V c main_arg2) (V c main_v15) :=
  (dat0 V c).arrAt_eq_of_cover 3 (G (V c main_arg0) (V c main_arg2) (V c main_v15)) (fun t _ => flushed_eq V c t) cover

end Cert.KernelIdeal.Stage0

end
-- ==== Proof.Stage1.lean ====
/-
  The second tiled stage read as one array.

  At a block of 5000 nodes the stage forms the hidden layer — each aggregated row scaled by the node's coefficient,
  plus the bias row, rectified at zero —, multiplies it by the 128 × 1 weight column and scales the result by the
  node's coefficient again. Block t of the output is the restriction to rows 5000·t … 5000·t + 4999 of ONE function
  of the four input arrays,
      (i, 0) ↦ (∑ k, max (d (i, 0) · A (i, k) + b (0, k)) 0 · W (k, 0)) · d (i, 0),
  and the 20 blocks cover the output column.
-/
import proofs.«114599_j73169062855340_2_alg».proof.Proof.Gen.KernelIdeal.Frame
import proofs.«114599_j73169062855340_2_alg».proof.Proof.LibPlainDot
import proofs.«114599_j73169062855340_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-- The stage's result as one function of its four input arrays (the rectifier's zero spelt as the float word). -/
def G (A : S100000x128.Idx → EReal) (d : S100000x1.Idx → EReal) (b : S1x128.Idx → EReal) (Wt : S128x1.Idx → EReal) :
    S100000x1.Idx → EReal :=
  fun i => (∑ k : Fin 128, max (d (ix2 (i 0) (0 : Fin 1)) * A (ix2 (i 0) k) + b (ix2 (0 : Fin 1) k)) (Ideal.ofBits .f32 0x00000000#32)
      * Wt (ix2 k (0 : Fin 1))) * d (ix2 (i 0) (0 : Fin 1))

/-- The body's value at row p of a block. -/
theorem pay_apply (v0 : Vec Ideal S5000x1 .f32) (v2 : Vec Ideal S5000x128 .f32) (v6 : Vec Ideal S1x128 .f32)
    (v13 : Vec Ideal S128x1 .f32) (v16 : Vec Ideal S5000x1 .f32) (p : Fin 5000) :
    k1_pay1 v0 v2 v6 v13 v16 (ix2 p (0 : Fin 1))
      = (∑ k : Fin 128, max (v0 (ix2 p (0 : Fin 1)) * v2 (ix2 p k) + v6 (ix2 (0 : Fin 1) k)) (Ideal.ofBits .f32 0x00000000#32)
          * v13 (ix2 k (0 : Fin 1))) * v16 (ix2 p (0 : Fin 1)) := by
  unfold k1_pay1
  rw [mulf_apply]
  refine congrArg₂ (· * ·) ?_ ?_
  · refine (PlainDot.matmul_zero_apply 5000 128 1 none _ _ p (0 : Fin 1)).trans ?_
    refine Finset.sum_congr rfl fun k _ => ?_
    rw [truncf_apply, truncf_apply, maximumf_apply, addf_apply, mulf_apply, shapeCast_self, shapeCast_self, shapeCast_self,
      LibKeepdims.broadcastTo_a1_ab_apply, broadcastTo_1b_ab_apply]
    rfl
  · rw [shapeCast_self]

/-- The printed index maps over the grid: the row blocks move with the point, the bias row and the weight column stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of `G` of the arrays as the stage finds them. -/
theorem flushed_eq (c : Dev nD) (t : Fin cfg1.N) :
    (dat1 V c).flushed 4 t = ((cfg1.win 4).blk t).view.read (Elt Ideal)
      (G (V c main_v26) (V c main_v15) (V c main_v27) (V c main_arg4)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x1) hz2, View.ld_unit_zero (S := S5000x1) hz2,
    View.ld_unit_zero (S := S1x128) hz2]
  obtain ⟨e0, e1, e2, e3, e4, e5, e6, e7, e8, e9⟩ := idx_facts t
  have htN : t.val < 20 := t.isLt
  funext j
  obtain ⟨p, q, rfl⟩ : ∃ (p : Fin 5000) (q : Fin 1), j = ix2 p q := ⟨j 0, j 1, eq_ix2 j⟩
  obtain rfl : q = 0 := Subsingleton.elim q 0
  refine (pay_apply (iblk1 V c 1 t) (iblk1 V c 0 t) (iblk1 V c 2 t) (iblk1 V c 3 t) (iblk1 V c 1 t) p).trans ?_
  have hr : t.val * 5000 + p.val < 100000 := by have := p.isLt; omega
  have hout : ((cfg1.win 4).blk t).view.emb (ix2 p (0 : Fin 1)) = ix2 (⟨t.val * 5000 + p.val, hr⟩ : Fin 100000) (0 : Fin 1) := by
    funext a; apply Fin.ext
    match a with
    | ⟨0, _⟩ => show win1_4.index t (0 : Fin 2) * 5000 + 1 * p.val = t.val * 5000 + p.val; omega
    | ⟨1, _⟩ => show win1_4.index t (1 : Fin 2) * 1 + 1 * 0 = 0; omega
  have ha : ∀ k : Fin 128, iblk1 V c 0 t (ix2 p k) = V c main_v26 (ix2 (⟨t.val * 5000 + p.val, hr⟩ : Fin 100000) k) := by
    intro k
    show V c main_v26 (((cfg1.win 0).blk t).view.emb (ix2 p k)) = _
    refine congrArg (V c main_v26) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hd : iblk1 V c 1 t (ix2 p (0 : Fin 1)) = V c main_v15 (ix2 (⟨t.val * 5000 + p.val, hr⟩ : Fin 100000) (0 : Fin 1)) := by
    show V c main_v15 (((cfg1.win 1).blk t).view.emb (ix2 p (0 : Fin 1))) = _
    refine congrArg (V c main_v15) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have hb : ∀ k : Fin 128, iblk1 V c 2 t (ix2 (0 : Fin 1) k) = V c main_v27 (ix2 (0 : Fin 1) k) := by
    intro k
    show V c main_v27 (((cfg1.win 2).blk t).view.emb (ix2 (0 : Fin 1) k)) = _
    refine congrArg (V c main_v27) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have hw : ∀ k : Fin 128, iblk1 V c 3 t (ix2 k (0 : Fin 1)) = V c main_arg4 (ix2 k (0 : Fin 1)) := by
    intro k
    show V c main_arg4 (((cfg1.win 3).blk t).view.emb (ix2 k (0 : Fin 1))) = _
    refine congrArg (V c main_arg4) ?_
    funext a; apply Fin.ext
    match a with
    | ⟨0, _⟩ => show win1_3.index t (0 : Fin 2) * 128 + 1 * k.val = k.val; omega
    | ⟨1, _⟩ => show win1_3.index t (1 : Fin 2) * 1 + 1 * 0 = 0; omega
  rw [View.read_apply, hout, hd]
  simp only [ha, hb, hw]
  rfl

/-- An index of the output array is in point t's block iff each coordinate is in the block's range on its axis. -/
theorem mem_blk (t : Fin cfg1.N) (i : S100000x1.Idx) :
    i ∈ ((cfg1.win 4).blk t).view.set ↔ ∀ a : Fin 2, win1_4.index t a * S5000x1.size a ≤ (i a).val ∧ (i a).val < win1_4.index t a * S5000x1.size a + S5000x1.size a := by
  show i ∈ ((View.whole main_v28).slice (win1_4.rect t)).set ↔ _
  rw [View.set_slice_whole, Rect.mem_set_unit]
  exact Iff.rfl

/-- The blocks cover the output column: row r lies in block r / 5000. -/
theorem cover (i : S100000x1.Idx) : ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨e0, e1, e2, e3, e4, e5, e6, e7, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 1 ≤ (i 1).val ∧ (i 1).val < win1_4.index t (1 : Fin 2) * 1 + 1; omega

/-- THE OUTPUT ARRAY after the stage. -/
theorem final (c : Dev nD) :
    (dat1 V c).arrAt 4 cfg1.N = G (V c main_v26) (V c main_v15) (V c main_v27) (V c main_arg4) :=
  (dat1 V c).arrAt_eq_of_cover 4 (G (V c main_v26) (V c main_v15) (V c main_v27) (V c main_arg4)) (fun t _ => flushed_eq V c t) cover

end Cert.KernelIdeal.Stage1

end
-- ==== Proof.Stage2.lean ====
/-
  The third tiled stage read as one array.

  At a block of 5000 nodes the stage scales the aggregated column by the node's coefficient and adds the bias.
  Block t of the output is the restriction to rows 5000·t … 5000·t + 4999 of ONE function of the three input arrays,
      (i, 0) ↦ d (i, 0) · A (i, 0) + b (0, 0),
  and the 20 blocks cover the output column.
-/
import proofs.«114599_j73169062855340_2_alg».proof.Proof.Gen.KernelIdeal.Frame
import proofs.«114599_j73169062855340_2_alg».proof.Proof.LibPlainDot
import proofs.«114599_j73169062855340_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-- The stage's result as one function of its three input arrays. -/
def G (A : S100000x1.Idx → EReal) (d : S100000x1.Idx → EReal) (b : S1x1.Idx → EReal) : S100000x1.Idx → EReal :=
  fun i => d (ix2 (i 0) (0 : Fin 1)) * A (ix2 (i 0) (0 : Fin 1)) + b (ix2 (0 : Fin 1) (0 : Fin 1))

/-- The body's value at row p of a block. -/
theorem pay_apply (v0 : Vec Ideal S5000x1 .f32) (v2 : Vec Ideal S5000x1 .f32) (v5 : Vec Ideal S1x1 .f32) (p : Fin 5000) :
    k2_pay1 v0 v2 v5 (ix2 p (0 : Fin 1))
      = v0 (ix2 p (0 : Fin 1)) * v2 (ix2 p (0 : Fin 1)) + v5 (ix2 (0 : Fin 1) (0 : Fin 1)) := by
  unfold k2_pay1
  rw [addf_apply, mulf_apply, shapeCast_self, shapeCast_self, shapeCast_self, broadcastTo_1b_ab_apply]

/-- The printed index maps over the grid: the row blocks move with the point, the bias stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- WHAT POINT t WRITES BACK is block t of `G` of the arrays as the stage finds them. -/
theorem flushed_eq (c : Dev nD) (t : Fin cfg2.N) :
    (dat2 V c).flushed 3 t = ((cfg2.win 3).blk t).view.read (Elt Ideal)
      (G (V c main_v38) (V c main_v15) (V c main_v39)) := by
  show (cfg2.win 3).cut (grid2.coords t) ((dat2 V c).after 3 t) = _
  rw [after2_3]
  unfold out2_3
  rw [View.canon_unit_zero hz2]
  simp only [View.ld_unit_zero (S := S5000x1) hz2, View.ld_unit_zero (S := S1x1) hz2]
  obtain ⟨e0, e1, e2, e3, e4, e5, e6, e7⟩ := idx_facts t
  have htN : t.val < 20 := t.isLt
  funext j
  obtain ⟨p, q, rfl⟩ : ∃ (p : Fin 5000) (q : Fin 1), j = ix2 p q := ⟨j 0, j 1, eq_ix2 j⟩
  obtain rfl : q = 0 := Subsingleton.elim q 0
  refine (pay_apply (iblk2 V c 1 t) (iblk2 V c 0 t) (iblk2 V c 2 t) p).trans ?_
  have hr : t.val * 5000 + p.val < 100000 := by have := p.isLt; omega
  have hout : ((cfg2.win 3).blk t).view.emb (ix2 p (0 : Fin 1)) = ix2 (⟨t.val * 5000 + p.val, hr⟩ : Fin 100000) (0 : Fin 1) := by
    funext a; apply Fin.ext
    match a with
    | ⟨0, _⟩ => show win2_3.index t (0 : Fin 2) * 5000 + 1 * p.val = t.val * 5000 + p.val; omega
    | ⟨1, _⟩ => show win2_3.index t (1 : Fin 2) * 1 + 1 * 0 = 0; omega
  have ha : iblk2 V c 0 t (ix2 p (0 : Fin 1)) = V c main_v38 (ix2 (⟨t.val * 5000 + p.val, hr⟩ : Fin 100000) (0 : Fin 1)) := by
    show V c main_v38 (((cfg2.win 0).blk t).view.emb (ix2 p (0 : Fin 1))) = _
    refine congrArg (V c main_v38) ?_
    funext a; apply Fin.ext
    match a with
    | ⟨0, _⟩ => show win2_0.index t (0 : Fin 2) * 5000 + 1 * p.val = t.val * 5000 + p.val; omega
    | ⟨1, _⟩ => show win2_0.index t (1 : Fin 2) * 1 + 1 * 0 = 0; omega
  have hd : iblk2 V c 1 t (ix2 p (0 : Fin 1)) = V c main_v15 (ix2 (⟨t.val * 5000 + p.val, hr⟩ : Fin 100000) (0 : Fin 1)) := by
    show V c main_v15 (((cfg2.win 1).blk t).view.emb (ix2 p (0 : Fin 1))) = _
    refine congrArg (V c main_v15) ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have hb : iblk2 V c 2 t (ix2 (0 : Fin 1) (0 : Fin 1)) = V c main_v39 (ix2 (0 : Fin 1) (0 : Fin 1)) := by
    show V c main_v39 (((cfg2.win 2).blk t).view.emb (ix2 (0 : Fin 1) (0 : Fin 1))) = _
    refine congrArg (V c main_v39) ?_
    funext a; apply Fin.ext
    match a with
    | ⟨0, _⟩ => show win2_2.index t (0 : Fin 2) * 1 + 1 * 0 = 0; omega
    | ⟨1, _⟩ => show win2_2.index t (1 : Fin 2) * 1 + 1 * 0 = 0; omega
  rw [View.read_apply, hout, hd, ha, hb]
  rfl

/-- An index of the output array is in point t's block iff each coordinate is in the block's range on its axis. -/
theorem mem_blk (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v40).slice (win2_3.rect t)).set ↔ _
  rw [View.set_slice_whole, Rect.mem_set_unit]
  exact Iff.rfl

/-- The blocks cover the output column: row r lies in block r / 5000. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 20 := N_2
  let t : Fin cfg2.N := ⟨(i 0).val / 5000, by rw [hN]; omega⟩
  obtain ⟨e0, e1, e2, e3, e4, e5, e6, e7⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- THE OUTPUT ARRAY after the stage. -/
theorem final (c : Dev nD) :
    (dat2 V c).arrAt 3 cfg2.N = G (V c main_v38) (V c main_v15) (V c main_v39) :=
  (dat2 V c).arrAt_eq_of_cover 3 (G (V c main_v38) (V c main_v15) (V c main_v39)) (fun t _ => flushed_eq V c t) cover

end Cert.KernelIdeal.Stage2

end
-- ==== Proof.KHost.lean ====
/-
  The lines before the first tiled stage, assembled: the coefficient column is the coefficient function of the target
  words, and a buffer that none of the lines writes keeps its contents.
-/
import proofs.«114599_j73169062855340_2_alg».proof.Proof.KDefs
import proofs.«114599_j73169062855340_2_alg».proof.Proof.KWords
import proofs.«114599_j73169062855340_2_alg».proof.Proof.KCoef
import proofs.«114599_j73169062855340_2_alg».proof.Proof.Stage0
import proofs.«114599_j73169062855340_2_alg».proof.Proof.Stage1
import proofs.«114599_j73169062855340_2_alg».proof.Proof.Stage2

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable (W : Valuation τ sig (Elt Ideal))

theorem lineA_dis : afterA W (Proc.devRef .tc main_v15) = disCol (dstW (W (Proc.devRef .tc main_arg1))) := by
  unfold afterA
  rw [hostOps0_split, after_append, coef_line, words_dst]

/-- A buffer none of the lines before the first stage writes keeps its contents. -/
theorem lineA_keep (b : Ref sig .tc)
    (h0 : ∀ op ∈ (hostOps0 (F := Ideal)), Proc.devRef .tc b ∉ op.writes)
    (h1 : ∀ op ∈ (hostOps0_1 (F := Ideal)), Proc.devRef .tc b ∉ op.writes)
    (h2 : ∀ op ∈ (hostOps0_2 (F := Ideal)), Proc.devRef .tc b ∉ op.writes) :
    afterA W (Proc.devRef .tc b) = W (Proc.devRef .tc b) := by
  unfold afterA
  rw [after_of_forall_not_mem _ _ h2, after_of_forall_not_mem _ _ h1, after_of_forall_not_mem _ _ h0]

end Cert.KernelIdeal.HostLines

end
-- ==== Proof.KChain.lean ====
/-
  The tiled program's result as one function of its arguments.

  The run's buffer contents at the boundaries between host lines and tiled stages are followed from the launch to the
  return: each stage's output array is the stage's function of the arrays it finds (its input arrays are left as
  found), each host line's result is the line's function of the buffers it reads, and a buffer that a line or a stage
  does not write keeps its contents. Composed, the result array is the third stage of the aggregated second stage of
  the aggregated first stage.
-/
import proofs.«114599_j73169062855340_2_alg».proof.Proof.KHost

set_option maxRecDepth 16384

noncomputable section

namespace Cert.KernelIdeal.Chain

open Cert.KernelIdeal Cert.KernelIdeal.Gen Cert.KernelIdeal.HostLines
open Idealize.ShloMosaic Idealize.ShloMosaic.TcCoe Idealize.SL.Sem Idealize.ShloMosaic.StableHlo
open Idealize.ShloMosaic.Pipeline (Dat Cfg Window)

/-- No operation of a literal line writes the buffer: decided operation by operation. -/
local macro "no_write" : tactic =>
  `(tactic| (refine List.forall_iff_forall_mem.mp ?_
             simp only [hostOps0, hostOps0_1, hostOps0_2, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

variable (W : Valuation τ sig (Elt Ideal))

/-! ## The lines between the stages, over arbitrary starting contents -/

set_option maxHeartbeats 4000000 in
theorem lineC_agg : after (hostOps1 (F := Ideal)) W (Proc.devRef .tc main_v26)
    = agg128 (W (Proc.devRef .tc main_v16)) (W (Proc.devRef .tc main_v3)) (W (Proc.devRef .tc main_v6)) := by
  after_results
  unfold agg128 colW wrapW
  with_reducible rfl
set_option maxHeartbeats 4000000 in
theorem lineC_bias : after (hostOps1 (F := Ideal)) W (Proc.devRef .tc main_v27)
    = shapeCast S1x128 (W (Proc.devRef .tc main_arg3)) shapeCasts_S128_S1x128 := by
  after_results; rfl
set_option maxHeartbeats 4000000 in
theorem lineE_agg : after (hostOps2 (F := Ideal)) W (Proc.devRef .tc main_v38)
    = agg1 (W (Proc.devRef .tc main_v28)) (W (Proc.devRef .tc main_v3)) (W (Proc.devRef .tc main_v6)) := by
  after_results
  unfold agg1 colW wrapW
  with_reducible rfl
set_option maxHeartbeats 4000000 in
theorem lineE_bias : after (hostOps2 (F := Ideal)) W (Proc.devRef .tc main_v39)
    = shapeCast S1x1 (W (Proc.devRef .tc main_arg5)) shapeCasts_S1_S1x1 := by
  after_results; rfl

/-! ## The chain -/

variable (m : (ℓ : Loc nD τ sig) → Buf (Elt Ideal) ℓ) (ρ : Dev nD → PrngReg)

/-- The program's function of its argument arrays. -/
def value (x : FVec Ideal S100000x128 .f32) (ei : IVec S2x1600000 32) (w1 : FVec Ideal S128x128 .f32) (b1 : FVec Ideal S128 .f32)
    (w2 : FVec Ideal S128x1 .f32) (b2 : FVec Ideal S1 .f32) : FVec Ideal S100000x1 .f32 :=
  Stage2.G
    (agg1 (Stage1.G (agg128 (Stage0.G x w1 (disCol (dstW ei))) (srcW ei) (dstW ei)) (disCol (dstW ei))
        (shapeCast S1x128 b1 shapeCasts_S128_S1x128) w2) (srcW ei) (dstW ei))
    (disCol (dstW ei)) (shapeCast S1x1 b2 shapeCasts_S1_S1x1)

set_option maxHeartbeats 4000000 in
/-- THE RESULT ARRAY at the last boundary is the program's function of the arguments as launched. -/
theorem result_eq (c : Dev nD) :
    W8 m ρ c (Proc.devRef .tc main_v40)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- before the first stage
  have a3 : W3 m ρ c (Proc.devRef .tc main_v3) = srcW (m ((c : Thread nD τ).loc main_arg1)) := lineA_src (W0 m ρ c)
  have a6 : W3 m ρ c (Proc.devRef .tc main_v6) = dstW (m ((c : Thread nD τ).loc main_arg1)) := lineA_dst (W0 m ρ c)
  have a15 : V3 m ρ c main_v15 = disCol (dstW (m ((c : Thread nD τ).loc main_arg1))) := lineA_dis (W0 m ρ c)
  have a0 : V3 m ρ c main_arg0 = m ((c : Thread nD τ).loc main_arg0) :=
    lineA_keep (W0 m ρ c) main_arg0 (by no_write) (by no_write) (by no_write)
  have a2 : V3 m ρ c main_arg2 = m ((c : Thread nD τ).loc main_arg2) :=
    lineA_keep (W0 m ρ c) main_arg2 (by no_write) (by no_write) (by no_write)
  have a3' : W3 m ρ c (Proc.devRef .tc main_arg3) = m ((c : Thread nD τ).loc main_arg3) :=
    lineA_keep (W0 m ρ c) main_arg3 (by no_write) (by no_write) (by no_write)
  have a4 : W3 m ρ c (Proc.devRef .tc main_arg4) = m ((c : Thread nD τ).loc main_arg4) :=
    lineA_keep (W0 m ρ c) main_arg4 (by no_write) (by no_write) (by no_write)
  have a5 : W3 m ρ c (Proc.devRef .tc main_arg5) = m ((c : Thread nD τ).loc main_arg5) :=
    lineA_keep (W0 m ρ c) main_arg5 (by no_write) (by no_write) (by no_write)
  -- the first stage
  have b16 : W4 m ρ c (Proc.devRef .tc main_v16) = Stage0.G (V3 m ρ c main_arg0) (V3 m ρ c main_arg2) (V3 m ρ c main_v15) :=
    (W4_arr m ρ c 3).trans (Stage0.final (V3 m ρ) c)
  have b15 : W4 m ρ c (Proc.devRef .tc main_v15) = V3 m ρ c main_v15 :=
    (W4_arr m ρ c 2).trans (((dat0 (V3 m ρ) c).arrAt_in 2 rfl _).trans (A_eq0 (V3 m ρ) c 2))
  have b3 : W4 m ρ c (Proc.devRef .tc main_v3) = W3 m ρ c (Proc.devRef .tc main_v3) := W4_of_ne m ρ c main_v3 (by decide)
  have b6 : W4 m ρ c (Proc.devRef .tc main_v6) = W3 m ρ c (Proc.devRef .tc main_v6) := W4_of_ne m ρ c main_v6 (by decide)
  have b3' : W4 m ρ c (Proc.devRef .tc main_arg3) = W3 m ρ c (Proc.devRef .tc main_arg3) := W4_of_ne m ρ c main_arg3 (by decide)
  have b4 : W4 m ρ c (Proc.devRef .tc main_arg4) = W3 m ρ c (Proc.devRef .tc main_arg4) := W4_of_ne m ρ c main_arg4 (by decide)
  have b5 : W4 m ρ c (Proc.devRef .tc main_arg5) = W3 m ρ c (Proc.devRef .tc main_arg5) := W4_of_ne m ρ c main_arg5 (by decide)
  -- the lines before the second stage
  have c26 : V5 m ρ c main_v26 = agg128 (W4 m ρ c (Proc.devRef .tc main_v16)) (W4 m ρ c (Proc.devRef .tc main_v3)) (W4 m ρ c (Proc.devRef .tc main_v6)) :=
    lineC_agg (W4 m ρ c)
  have c27 : V5 m ρ c main_v27 = shapeCast S1x128 (W4 m ρ c (Proc.devRef .tc main_arg3)) shapeCasts_S128_S1x128 := lineC_bias (W4 m ρ c)
  have c15 : V5 m ρ c main_v15 = W4 m ρ c (Proc.devRef .tc main_v15) := after_of_forall_not_mem _ _ (by no_write)
  have c4 : V5 m ρ c main_arg4 = W4 m ρ c (Proc.devRef .tc main_arg4) := after_of_forall_not_mem _ _ (by no_write)
  have c3 : W5 m ρ c (Proc.devRef .tc main_v3) = W4 m ρ c (Proc.devRef .tc main_v3) := after_of_forall_not_mem _ _ (by no_write)
  have c6 : W5 m ρ c (Proc.devRef .tc main_v6) = W4 m ρ c (Proc.devRef .tc main_v6) := after_of_forall_not_mem _ _ (by no_write)
  have c5 : W5 m ρ c (Proc.devRef .tc main_arg5) = W4 m ρ c (Proc.devRef .tc main_arg5) := after_of_forall_not_mem _ _ (by no_write)
  -- the second stage
  have d28 : W6 m ρ c (Proc.devRef .tc main_v28) = Stage1.G (V5 m ρ c main_v26) (V5 m ρ c main_v15) (V5 m ρ c main_v27) (V5 m ρ c main_arg4) :=
    (W6_arr m ρ c 4).trans (Stage1.final (V5 m ρ) c)
  have d15 : W6 m ρ c (Proc.devRef .tc main_v15) = V5 m ρ c main_v15 :=
    (W6_arr m ρ c 1).trans (((dat1 (V5 m ρ) c).arrAt_in 1 rfl _).trans (A_eq1 (V5 m ρ) c 1))
  have d3 : W6 m ρ c (Proc.devRef .tc main_v3) = W5 m ρ c (Proc.devRef .tc main_v3) := W6_of_ne m ρ c main_v3 (by decide)
  have d6 : W6 m ρ c (Proc.devRef .tc main_v6) = W5 m ρ c (Proc.devRef .tc main_v6) := W6_of_ne m ρ c main_v6 (by decide)
  have d5 : W6 m ρ c (Proc.devRef .tc main_arg5) = W5 m ρ c (Proc.devRef .tc main_arg5) := W6_of_ne m ρ c main_arg5 (by decide)
  -- the lines before the third stage
  have e38 : V7 m ρ c main_v38 = agg1 (W6 m ρ c (Proc.devRef .tc main_v28)) (W6 m ρ c (Proc.devRef .tc main_v3)) (W6 m ρ c (Proc.devRef .tc main_v6)) :=
    lineE_agg (W6 m ρ c)
  have e39 : V7 m ρ c main_v39 = shapeCast S1x1 (W6 m ρ c (Proc.devRef .tc main_arg5)) shapeCasts_S1_S1x1 := lineE_bias (W6 m ρ c)
  have e15 : V7 m ρ c main_v15 = W6 m ρ c (Proc.devRef .tc main_v15) := after_of_forall_not_mem _ _ (by no_write)
  -- the third stage
  have f40 : W8 m ρ c (Proc.devRef .tc main_v40) = Stage2.G (V7 m ρ c main_v38) (V7 m ρ c main_v15) (V7 m ρ c main_v39) :=
    (W8_arr m ρ c 3).trans (Stage2.final (V7 m ρ) c)
  rw [f40, e38, e39, e15, d28, d15, d3, d6, d5, c26, c27, c15, c4, c3, c6, c5, b16, b15, b3, b6, b3', b4, b5, a3, a6, a15, a0, a2, a3', a4, a5]
  rfl

end Cert.KernelIdeal.Chain

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.LibVecGather.lean ====
/-
  A gather from a vector read at an index.

  What `x[idx]` of a vector `x : [N]` at a vector of positions lowers to: a gather with no offset axis, collapsed
  axis 0, start index map [0] and slice size 1 over the positions as an `[E, 1]` array. Entry e of the result is the
  vector's entry r, where r is the position `idx[e, 0]` read as a signed integer and clamped into [0, N − 1].
-/
import Idealize.ShloMosaic.Lib.ValueIdx
import proofs.«114599_j73169062855340_2_alg».proof.Proof.LibRowGather

noncomputable section

namespace Idealize.ShloMosaic.RowGather

open Idealize.ShloMosaic Idealize.ShloMosaic.ValueIdx

variable {α : Type}

/-- The dimension numbers of a gather from a vector: vector `[N]`, positions `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at the selected position. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowGather

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«114599_j73169062855340_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibGcnWords.lean ====
/-
  The message-passing operations of a graph convolution read at an index, on the extended reals.

  The row numbers of the messages come as 32-bit words. A message is READ from the row its source word names after
  the usual treatment of a gather (a negative word wrapped once by the number of nodes, then clamped into range);
  it is DELIVERED to row i exactly when its target word, read as a signed integer, is i — words outside the range
  deliver nothing. A message delivered to row i has target row i also under the gather's treatment. The degree of a
  node is the number of messages delivered to it, and the normalization coefficient — the inverse square root of a
  positive degree, zero otherwise — is a nonnegative real.
-/
import Idealize.ShloMosaic.Lib.ValueIdx
import Idealize.ShloMosaic.Lib.ValueLayout
import Idealize.ShloMosaic.PureOps.Ideal.Laws
import proofs.«114599_j73169062855340_2_alg».proof.Proof.LibRowGather
import proofs.«114599_j73169062855340_2_alg».proof.Proof.LibVecGather
import proofs.«114599_j73169062855340_2_alg».proof.Proof.LibScatterSum
import proofs.«114599_j73169062855340_2_alg».proof.Proof.LibHostKeepdims
import proofs.«114599_j73169062855340_2_alg».proof.Proof.LibGcnLaws

noncomputable section

open scoped BigOperators

namespace Cert.GcnRead

open Idealize.ShloMosaic Idealize.ShloMosaic.ValueIdx Idealize.ShloMosaic.RowGather

variable {N E : ℕ}

/-- The row a word names under a gather's treatment: wrapped once if negative, then clamped. -/
def node (hN : 0 < N) (v z n : IVec ⟨1, ![E]⟩ 32) (e : Fin E) : Fin N :=
  rowOf hN (select (cmpi .slt v z) (addi v n) v (ix1 e))

/-- Message e is delivered to row i. -/
def lands (v : IVec ⟨1, ![E]⟩ 32) (e : Fin E) (i : Fin N) : Prop := (v (ix1 e)).toInt = (i.val : Int)

instance (v : IVec ⟨1, ![E]⟩ 32) (e : Fin E) (i : Fin N) : Decidable (lands v e i) := by unfold lands; infer_instance

/-- A message delivered to row i names row i under the gather's treatment too: its word is a nonnegative in-range
    integer, so it is neither wrapped nor clamped. -/
theorem node_of_lands (hN : 0 < N) (v z n : IVec ⟨1, ![E]⟩ 32) (e : Fin E) (i : Fin N) (hz : z (ix1 e) = 0#32)
    (h : lands v e i) : node hN v z n e = i := by
  unfold lands at h
  unfold node
  rw [select_apply]
  have hc : cmpi .slt v z (ix1 e) = 0#1 := by
    show IntOp.cmpi .slt (v (ix1 e)) (z (ix1 e)) = 0#1
    rw [hz]
    unfold IntOp.cmpi
    have : (v (ix1 e)).slt 0#32 = false := by
      rw [BitVec.slt, h]
      simp
    simp [this]
  rw [hc]
  show rowOf hN (v (ix1 e)) = i
  refine Fin.ext ?_
  show min (v (ix1 e)).toInt.toNat (N - 1) = i.val
  rw [h, Int.toNat_natCast]
  have := i.isLt
  omega

/-- The degree of row i: the messages delivered to it, counted from the float zero in float ones. -/
def deg (v : IVec ⟨1, ![E]⟩ 32) (i : Fin N) : EReal :=
  Ideal.ofBits .f32 0x00000000#32
    + ∑ _e ∈ Finset.univ.filter (fun e : Fin E => lands v e i), Ideal.ofBits .f32 0x3F800000#32

/-- The normalization coefficient of row i. -/
def coef (v : IVec ⟨1, ![E]⟩ 32) (i : Fin N) : EReal :=
  Scalar.select (Ideal.cmp .ogt (deg v i) (Ideal.ofBits .f32 0x00000000#32)) (Ideal.rsqrt (deg v i))
    (Ideal.ofBits .f32 0x00000000#32)

/-- A degree is a nonnegative real. -/
theorem deg_real (v : IVec ⟨1, ![E]⟩ 32) (i : Fin N) : ∃ r : ℝ, 0 ≤ r ∧ deg v i = (r : EReal) := by
  obtain ⟨r, hr0, hr⟩ := GcnLaws.sum_zero_one_real (Finset.univ.filter (fun e : Fin E => lands v e i))
    (fun _ => Ideal.ofBits .f32 0x3F800000#32) (fun _ => Or.inr GcnLaws.ofBits_one_f32)
  exact ⟨r, hr0, by unfold deg; rw [Ideal.ofBits_zero_f32, zero_add, hr]⟩

/-- A coefficient is nonnegative and finite: zero at degree zero, the inverse square root of a positive real
    otherwise. -/
theorem coef_bounds (v : IVec ⟨1, ![E]⟩ 32) (i : Fin N) : 0 ≤ coef v i ∧ coef v i ≠ ⊤ := by
  obtain ⟨r, hr0, hr⟩ := deg_real v i
  unfold coef
  rw [hr, Ideal.ofBits_zero_f32]
  unfold Scalar.select
  split
  · rename_i hc
    have hpos : 0 < r := by
      unfold Ideal.cmp at hc
      by_contra hneg
      have h0 : r = 0 := le_antisymm (not_lt.mp hneg) hr0
      subst h0
      simp at hc
    have hrs : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr0), if_neg (ne_of_gt hpos)]
    rw [hrs]
    exact ⟨EReal.coe_nonneg.mpr (inv_nonneg.mpr (Real.sqrt_nonneg r)), EReal.coe_ne_top _⟩
  · exact ⟨le_refl _, EReal.zero_ne_top⟩

end Cert.GcnRead

end
-- ==== Proof.LibGcnColumn.lean ====
/-
  Gathers and accumulating scatters at a COLUMN of words, read at an index.

  The programs hand the row numbers to a gather or a scatter as an [E, 1] column spread from a length-E vector of
  words. Read at an index, a row gather returns the table's row named by the word (clamped), and an accumulating
  scatter returns the operand's entry plus the sum of the updates whose word, read signed, is the row.
-/
import proofs.«114599_j73169062855340_2_alg».proof.Proof.LibGcnWords

noncomputable section

open scoped BigOperators

namespace Cert.GcnRead

open Idealize.ShloMosaic Idealize.ShloMosaic.ValueIdx Idealize.ShloMosaic.RowGather

variable {N E D : ℕ}

/-- Rows of a table gathered at a column of words. -/
theorem gatherRows_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (v : IVec ⟨1, ![E]⟩ 32) (e : Fin E) (j : Fin D) :
    Host.gather (rowDims N E D wf) X (broadcastInDim ⟨2, ![E, 1]⟩ ![0] bc v) (ix2 e j) = X (ix2 (rowOf hN (v (ix1 e))) j) := by
  rw [rowGather_apply hN wf, LibHostKeepdims.bcast_a_a1_apply]

/-- Entries of a vector gathered at a column of words. -/
theorem gatherVec_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (v : IVec ⟨1, ![E]⟩ 32) (e : Fin E) :
    Host.gather (vecDims N E wf) X (broadcastInDim ⟨2, ![E, 1]⟩ ![0] bc v) (ix1 e) = X (ix1 (rowOf hN (v (ix1 e)))) := by
  rw [vecGather_apply hN wf, LibHostKeepdims.bcast_a_a1_apply]

/-- Rows added up at a column of words. -/
theorem scatterRows_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (Z : FVec Ideal ⟨2, ![N, D]⟩ .f32) (v : IVec ⟨1, ![E]⟩ 32) (U : FVec Ideal ⟨2, ![E, D]⟩ .f32) (i : Fin N) (j : Fin D) :
    Host.scatterAdd (RowScatter.rowDims N E D wf) Z (broadcastInDim ⟨2, ![E, 1]⟩ ![0] bc v) U (ix2 i j)
      = Z (ix2 i j) + ∑ e ∈ Finset.univ.filter (fun e : Fin E => lands v e i), U (ix2 e j) := by
  refine (RowScatter.rowScatterAdd_apply wf Z _ U i j).trans ?_
  congr 1
  refine Finset.sum_congr (Finset.filter_congr fun e _ => ?_) fun _ _ => rfl
  unfold lands
  rw [LibHostKeepdims.bcast_a_a1_apply]

/-- Entries added up at a column of words. -/
theorem scatterVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (Z : FVec Ideal ⟨1, ![N]⟩ .f32) (v : IVec ⟨1, ![E]⟩ 32) (U : FVec Ideal ⟨1, ![E]⟩ .f32) (i : Fin N) :
    Host.scatterAdd (RowScatter.vecDims N E wf) Z (broadcastInDim ⟨2, ![E, 1]⟩ ![0] bc v) U (ix1 i)
      = Z (ix1 i) + ∑ e ∈ Finset.univ.filter (fun e : Fin E => lands v e i), U (ix1 e) := by
  refine (RowScatter.vecScatterAdd_apply wf Z _ U i).trans ?_
  congr 1
  refine Finset.sum_congr (Finset.filter_congr fun e _ => ?_) fun _ _ => rfl
  unfold lands
  rw [LibHostKeepdims.bcast_a_a1_apply]

end Cert.GcnRead

end
-- ==== Proof.LibGcnPieces.lean ====
/-
  The pieces of a message-passing layer read at an index, on the extended reals.

  A scalar spread over an array; rows (or vector entries) gathered at a column of wrapped words; updates added up
  from a zero array at a column of words; and the coefficient vector — the inverse square root of a positive degree,
  zero otherwise — read as the coefficient of a row.
-/
import proofs.«114599_j73169062855340_2_alg».proof.Proof.LibGcnColumn

noncomputable section

open scoped BigOperators

namespace Cert.GcnRead

open Idealize.ShloMosaic Idealize.ShloMosaic.ValueIdx Idealize.ShloMosaic.RowGather

variable {N E D : ℕ}

/-- A float scalar spread over an array reads the scalar everywhere. -/
theorem splat_apply {t : Shape} {φ : FTy} (h : (⟨0, ![]⟩ : Shape).BroadcastsInDim t ![]) (w : BitVec φ.bits) (j : t.Idx) :
    broadcastInDim t ![] h (constant (F := Ideal) ⟨0, ![]⟩ φ w) j = Ideal.ofBits φ w := rfl

/-- A word spread over an array reads the word everywhere. -/
theorem splatI_apply {t : Shape} {w : ℕ} (h : (⟨0, ![]⟩ : Shape).BroadcastsInDim t ![]) (b : BitVec w) (j : t.Idx) :
    broadcastInDim t ![] h (constantI ⟨0, ![]⟩ w b) j = b := rfl

/-- Rows gathered at a column of wrapped words: message e reads the row of its source node. -/
theorem gatherWrapped_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (s z n : IVec ⟨1, ![E]⟩ 32) (e : Fin E) (j : Fin D) :
    Host.gather (rowDims N E D wf) X (broadcastInDim ⟨2, ![E, 1]⟩ ![0] bc (select (cmpi .slt s z) (addi s n) s)) (ix2 e j)
      = X (ix2 (node hN s z n e) j) := by
  rw [gatherRows_apply hN]
  rfl

/-- Vector entries gathered at a column of wrapped words. -/
theorem gatherVecWrapped_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (s z n : IVec ⟨1, ![E]⟩ 32) (e : Fin E) :
    Host.gather (vecDims N E wf) X (broadcastInDim ⟨2, ![E, 1]⟩ ![0] bc (select (cmpi .slt s z) (addi s n) s)) (ix1 e)
      = X (ix1 (node hN s z n e)) := by
  rw [gatherVec_apply hN]
  rfl

/-- Updates added up from the zero array at a column of words. -/
theorem scatterZero_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (bz : (⟨0, ![]⟩ : Shape).BroadcastsInDim ⟨2, ![N, D]⟩ ![])
    (d : IVec ⟨1, ![E]⟩ 32) (U : FVec Ideal ⟨2, ![E, D]⟩ .f32) (i : Fin N) (j : Fin D) :
    Host.scatterAdd (RowScatter.rowDims N E D wf) (broadcastInDim ⟨2, ![N, D]⟩ ![] bz (constant (F := Ideal) ⟨0, ![]⟩ .f32 0x00000000#32))
        (broadcastInDim ⟨2, ![E, 1]⟩ ![0] bc d) U (ix2 i j)
      = 0 + ∑ e ∈ Finset.univ.filter (fun e : Fin E => lands d e i), U (ix2 e j) := by
  rw [scatterRows_apply, splat_apply, Ideal.ofBits_zero_f32]

/-- The coefficient vector read at a row. -/
theorem coefVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (bzN : (⟨0, ![]⟩ : Shape).BroadcastsInDim ⟨1, ![N]⟩ ![]) (bzE : (⟨0, ![]⟩ : Shape).BroadcastsInDim ⟨1, ![E]⟩ ![])
    (d : IVec ⟨1, ![E]⟩ 32) (i : Fin N) :
    select
        (cmpf (F := Ideal) .ogt
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32)))
          (broadcastInDim ⟨1, ![N]⟩ ![] bzN (constant (F := Ideal) ⟨0, ![]⟩ .f32 0x00000000#32)))
        (Host.rsqrt (F := Ideal)
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32))))
        (broadcastInDim ⟨1, ![N]⟩ ![] bzN (constant (F := Ideal) ⟨0, ![]⟩ .f32 0x00000000#32)) (ix1 i)
      = coef d i := by
  have hdeg : Host.scatterAdd (RowScatter.vecDims N E wf) (broadcastInDim ⟨1, ![N]⟩ ![] bzN (constant (F := Ideal) ⟨0, ![]⟩ .f32 0x00000000#32))
      (broadcastInDim ⟨2, ![E, 1]⟩ ![0] bc d) (broadcastInDim ⟨1, ![E]⟩ ![] bzE (constant (F := Ideal) ⟨0, ![]⟩ .f32 0x3F800000#32)) (ix1 i)
      = deg d i := by
    rw [scatterVec_apply]
    rfl
  rw [select_apply, cmpf_apply]
  show Scalar.select (Ideal.cmp .ogt _ (Ideal.ofBits .f32 0x00000000#32)) (Ideal.rsqrt _) (Ideal.ofBits .f32 0x00000000#32) = _
  rw [hdeg]
  rfl

end Cert.GcnRead

end
-- ==== Proof.LibGcnFolded.lean ====
/-
  Two evaluations of a two-layer graph convolution, on the extended reals.

  Nodes are numbered by `Fin n`, messages (edges and self-loops) by a finite type `ε`. A message `e` is read from
  node `S e`; `L e i` says that it is delivered to node `i`, and then `D e = i`. With a nonnegative finite
  coefficient `dis i` per node, a layer's normalized aggregation can be formed with the coefficient of the source
  folded into the features before the messages are formed and the coefficient of the target applied after the sum,
      dis i * (0 + ∑_{e → i} (g (S e) * dis (S e))),
  or with the product of the two coefficients attached to every message,
      0 + ∑_{e → i} g (S e) * (dis (S e) * dis (D e)).
  The two agree for arbitrary (possibly infinite) features `g`: the only law used beyond commutativity and associativity
  is that a nonnegative finite factor goes through a finite sum.
-/
import Idealize.ShloMosaic.PureOps.Ideal
import proofs.«114599_j73169062855340_2_alg».proof.Proof.LibGcnLaws

noncomputable section

open scoped BigOperators

namespace Cert.GcnSpec

open Idealize.ShloMosaic

variable {n d₁ d₂ : ℕ} {ε : Type} [Fintype ε]

/-- One row of the aggregation law: the target's coefficient `c` applied after the sum of messages that already
    carry the source's coefficient, against messages that carry the product of both. -/
theorem aggregate_law (s : Finset ε) (c : EReal) (hc0 : 0 ≤ c) (hct : c ≠ ⊤) (g a b : ε → EReal)
    (hb : ∀ e ∈ s, b e = c) :
    c * (0 + ∑ e ∈ s, g e * a e) = 0 + ∑ e ∈ s, g e * (a e * b e) := by
  rw [zero_add, zero_add, GcnLaws.mul_sum_of_nonneg_ne_top s c hc0 hct]
  refine Finset.sum_congr rfl fun e he => ?_
  rw [hb e he, mul_comm c, mul_assoc]

section Layers

variable (S D : ε → Fin n) (L : ε → Fin n → Prop) [∀ e i, Decidable (L e i)] (dis : Fin n → EReal)
variable (x : Fin n → Fin d₁ → EReal) (w1 : Fin d₁ → Fin d₂ → EReal) (b1 : Fin d₂ → EReal) (w2 : Fin d₂ → EReal) (b2 : EReal)

/-- The messages delivered to node `i`. -/
def into (i : Fin n) : Finset ε := Finset.univ.filter fun e => L e i

/-- First dense stage with the source coefficient folded in: `(x W₁) · dis`. -/
def scaled1 (i : Fin n) (j : Fin d₂) : EReal := (∑ k, x i k * w1 k j) * dis i
/-- First aggregation of the scaled features. -/
def agg1 (i : Fin n) (j : Fin d₂) : EReal := 0 + ∑ e ∈ into L i, scaled1 dis x w1 (S e) j
/-- The hidden layer: the target coefficient, the bias and the rectifier. -/
def hidden (i : Fin n) (j : Fin d₂) : EReal := max (dis i * agg1 S L dis x w1 i j + b1 j) 0
/-- Second dense stage with the source coefficient folded in. -/
def scaled2 (i : Fin n) : EReal := (∑ k, hidden S L dis x w1 b1 i k * w2 k) * dis i
/-- Second aggregation. -/
def agg2 (i : Fin n) : EReal := 0 + ∑ e ∈ into L i, scaled2 S L dis x w1 b1 w2 (S e)
/-- THE FOLDED EVALUATION: what the tiled program computes. -/
def folded (i : Fin n) : EReal := dis i * agg2 S L dis x w1 b1 w2 i + b2

/-- The normalization attached to a message. -/
def norm (e : ε) : EReal := dis (S e) * dis (D e)
/-- First layer with per-message normalization, bias and rectifier. -/
def refHidden (i : Fin n) (j : Fin d₂) : EReal :=
  max ((0 + ∑ e ∈ into L i, (∑ k, x (S e) k * w1 k j) * norm S D dis e) + b1 j) 0
/-- THE PER-MESSAGE EVALUATION: what the plain program computes. -/
def perMessage (i : Fin n) : EReal :=
  (0 + ∑ e ∈ into L i, (∑ k, refHidden S D L dis x w1 b1 (S e) k * w2 k) * norm S D dis e) + b2

variable (hD : ∀ e i, L e i → D e = i) (h0 : ∀ i, 0 ≤ dis i) (ht : ∀ i, dis i ≠ ⊤)
include hD h0 ht

theorem hidden_eq (i : Fin n) (j : Fin d₂) : hidden S L dis x w1 b1 i j = refHidden S D L dis x w1 b1 i j := by
  unfold hidden refHidden agg1 scaled1 norm
  rw [aggregate_law (into L i) (dis i) (h0 i) (ht i) (fun e => ∑ k, x (S e) k * w1 k j) (fun e => dis (S e))
    (fun e => dis (D e)) (fun e he => by rw [hD e i (Finset.mem_filter.mp he).2])]

/-- THE TWO EVALUATIONS AGREE. -/
theorem folded_eq (i : Fin n) : folded S L dis x w1 b1 w2 b2 i = perMessage S D L dis x w1 b1 w2 b2 i := by
  unfold folded perMessage agg2 scaled2 norm
  rw [aggregate_law (into L i) (dis i) (h0 i) (ht i) (fun e => ∑ k, hidden S L dis x w1 b1 (S e) k * w2 k)
    (fun e => dis (S e)) (fun e => dis (D e)) (fun e he => by rw [hD e i (Finset.mem_filter.mp he).2])]
  simp only [hidden_eq S D L dis x w1 b1 hD h0 ht]

end Layers

end Cert.GcnSpec

end
-- ==== Proof.KRead.lean ====
/-
  The tiled program's result, entry by entry, is the folded evaluation of the two-layer graph convolution.

  Reading the nested function of the arguments at row i: a stage's value at a row is the spec's dense product and
  scaling at that row; an aggregation between stages is the sum, over the messages delivered to the row, of the
  previous stage's value at the message's source row; the coefficient column at a row is the row's coefficient.
-/
import proofs.«114599_j73169062855340_2_alg».proof.Proof.KChain
import proofs.«114599_j73169062855340_2_alg».proof.Proof.LibGcnPieces
import proofs.«114599_j73169062855340_2_alg».proof.Proof.LibGcnFolded
import Idealize.ShloMosaic.Lib.ValueLayout

set_option maxRecDepth 16384

noncomputable section

open scoped BigOperators

namespace Cert.KernelIdeal.Read

open Cert.KernelIdeal Cert.KernelIdeal.Gen Cert.KernelIdeal.HostLines
open Idealize.ShloMosaic Idealize.ShloMosaic.ValueIdx Cert.GcnRead

theorem hN : 0 < 100000 := by decide

/-- The zero words and the node-count words the wrap compares with and adds. -/
abbrev zW : IVec S1700000 32 := broadcastInDim S1700000 ![] bcast_S_S1700000 (constantI S_ 32 0#32)
abbrev nW : IVec S1700000 32 := broadcastInDim S1700000 ![] bcast_S_S1700000 (constantI S_ 32 100000#32)

theorem g128_eq : gather_S100000x128_S1700000x1_S1700000x128_1_0_n_n_0_1_1128
    = RowGather.rowDims 100000 1700000 128 gather_S100000x128_S1700000x1_S1700000x128_1_0_n_n_0_1_1128_wf := rfl
theorem g1_eq : gather_S100000x1_S1700000x1_S1700000x1_1_0_n_n_0_1_11
    = RowGather.rowDims 100000 1700000 1 gather_S100000x1_S1700000x1_S1700000x1_1_0_n_n_0_1_11_wf := rfl
theorem s128_eq : scatter_S100000x128_S1700000x1_S1700000x128_1_0_0_1
    = RowScatter.rowDims 100000 1700000 128 scatter_S100000x128_S1700000x1_S1700000x128_1_0_0_1_wf := rfl
theorem s1_eq : scatter_S100000x1_S1700000x1_S1700000x1_1_0_0_1
    = RowScatter.rowDims 100000 1700000 1 scatter_S100000x1_S1700000x1_S1700000x1_1_0_0_1_wf := rfl
theorem sv_eq : scatter_S100000_S1700000x1_S1700000_n_0_0_1
    = RowScatter.vecDims 100000 1700000 scatter_S100000_S1700000x1_S1700000_n_0_0_1_wf := rfl

/-- The coefficient column at a row is the row's coefficient. -/
theorem disCol_apply (d : IVec S1700000 32) (r : Fin 100000) : disCol d (ix2 r (0 : Fin 1)) = coef d r := by
  unfold disCol
  rw [LibHostKeepdims.bcast_a_a1_apply]
  unfold disV degV colW
  rw [sv_eq]
  exact coefVec_apply _ _ _ _ d r

/-- The 128-column aggregation at an entry. -/
theorem agg128_apply (X : FVec Ideal S100000x128 .f32) (s d : IVec S1700000 32) (r : Fin 100000) (j : Fin 128) :
    agg128 X s d (ix2 r j)
      = 0 + ∑ e ∈ Finset.univ.filter (fun e : Fin 1700000 => lands d e r), X (ix2 (node hN s zW nW e) j) := by
  unfold agg128 colW wrapW
  rw [g128_eq, s128_eq, scatterZero_apply]
  refine congrArg (fun t => 0 + t) (Finset.sum_congr rfl fun e _ => ?_)
  exact gatherWrapped_apply hN _ _ X s zW nW e j

/-- The one-column aggregation at an entry. -/
theorem agg1_apply (X : FVec Ideal S100000x1 .f32) (s d : IVec S1700000 32) (r : Fin 100000) :
    agg1 X s d (ix2 r (0 : Fin 1))
      = 0 + ∑ e ∈ Finset.univ.filter (fun e : Fin 1700000 => lands d e r), X (ix2 (node hN s zW nW e) (0 : Fin 1)) := by
  unfold agg1 colW wrapW
  rw [g1_eq, s1_eq, scatterZero_apply]
  refine congrArg (fun t => 0 + t) (Finset.sum_congr rfl fun e _ => ?_)
  exact gatherWrapped_apply hN _ _ X s zW nW e (0 : Fin 1)

variable (x : FVec Ideal S100000x128 .f32) (ei : IVec S2x1600000 32) (w1 : FVec Ideal S128x128 .f32) (b1 : FVec Ideal S128 .f32)
  (w2 : FVec Ideal S128x1 .f32) (b2 : FVec Ideal S1 .f32)

/-- The spec's data read off the arguments. -/
abbrev S : Fin 1700000 → Fin 100000 := node hN (srcW ei) zW nW
abbrev L : Fin 1700000 → Fin 100000 → Prop := lands (dstW ei)
abbrev dis : Fin 100000 → EReal := coef (dstW ei)
abbrev X : Fin 100000 → Fin 128 → EReal := fun i k => x (ix2 i k)
abbrev W1 : Fin 128 → Fin 128 → EReal := fun k j => w1 (ix2 k j)
abbrev B1 : Fin 128 → EReal := fun j => b1 (ix1 j)
abbrev W2 : Fin 128 → EReal := fun k => w2 (ix2 k (0 : Fin 1))
abbrev B2 : EReal := b2 (ix1 (0 : Fin 1))

theorem stage0_apply (r : Fin 100000) (j : Fin 128) :
    Stage0.G x w1 (disCol (dstW ei)) (ix2 r j) = GcnSpec.scaled1 (dis ei) (X x) (W1 w1) r j := by
  unfold Stage0.G GcnSpec.scaled1
  show (∑ k : Fin 128, x (ix2 r k) * w1 (ix2 k j)) * disCol (dstW ei) (ix2 r (0 : Fin 1)) = _
  rw [disCol_apply]

theorem agg128_spec (r : Fin 100000) (j : Fin 128) :
    agg128 (Stage0.G x w1 (disCol (dstW ei))) (srcW ei) (dstW ei) (ix2 r j)
      = GcnSpec.agg1 (S ei) (L ei) (dis ei) (X x) (W1 w1) r j := by
  rw [agg128_apply]
  unfold GcnSpec.agg1 GcnSpec.into
  refine congrArg (fun t => 0 + t) (Finset.sum_congr rfl fun e _ => ?_)
  exact stage0_apply x ei w1 _ j

theorem stage1_apply (r : Fin 100000) :
    Stage1.G (agg128 (Stage0.G x w1 (disCol (dstW ei))) (srcW ei) (dstW ei)) (disCol (dstW ei))
        (shapeCast S1x128 b1 shapeCasts_S128_S1x128) w2 (ix2 r (0 : Fin 1))
      = GcnSpec.scaled2 (S ei) (L ei) (dis ei) (X x) (W1 w1) (B1 b1) (W2 w2) r := by
  unfold Stage1.G GcnSpec.scaled2 GcnSpec.hidden
  show (∑ k : Fin 128, max (disCol (dstW ei) (ix2 r (0 : Fin 1)) * agg128 (Stage0.G x w1 (disCol (dstW ei))) (srcW ei) (dstW ei) (ix2 r k)
      + shapeCast S1x128 b1 shapeCasts_S128_S1x128 (ix2 (0 : Fin 1) k)) (Ideal.ofBits .f32 0x00000000#32) * w2 (ix2 k (0 : Fin 1)))
      * disCol (dstW ei) (ix2 r (0 : Fin 1)) = _
  rw [disCol_apply, Ideal.ofBits_zero_f32]
  refine congrArg₂ (· * ·) (Finset.sum_congr rfl fun k _ => ?_) rfl
  rw [agg128_spec, shapeCast_a_1a_apply]

theorem agg1_spec (r : Fin 100000) :
    agg1 (Stage1.G (agg128 (Stage0.G x w1 (disCol (dstW ei))) (srcW ei) (dstW ei)) (disCol (dstW ei))
        (shapeCast S1x128 b1 shapeCasts_S128_S1x128) w2) (srcW ei) (dstW ei) (ix2 r (0 : Fin 1))
      = GcnSpec.agg2 (S ei) (L ei) (dis ei) (X x) (W1 w1) (B1 b1) (W2 w2) r := by
  rw [agg1_apply]
  unfold GcnSpec.agg2 GcnSpec.into
  refine congrArg (fun t => 0 + t) (Finset.sum_congr rfl fun e _ => ?_)
  exact stage1_apply x ei w1 b1 w2 _

/-- THE PROGRAM'S RESULT at row i is the folded evaluation at i. -/
theorem value_apply (i : Fin 100000) :
    Chain.value x ei w1 b1 w2 b2 (ix2 i (0 : Fin 1))
      = GcnSpec.folded (S ei) (L ei) (dis ei) (X x) (W1 w1) (B1 b1) (W2 w2) (B2 b2) i := by
  unfold Chain.value Stage2.G GcnSpec.folded
  show disCol (dstW ei) (ix2 i (0 : Fin 1)) * agg1 _ (srcW ei) (dstW ei) (ix2 i (0 : Fin 1))
      + shapeCast S1x1 b2 shapeCasts_S1_S1x1 (ix2 (0 : Fin 1) (0 : Fin 1)) = _
  rw [disCol_apply, agg1_spec, shapeCast_a_1a_apply]

end Cert.KernelIdeal.Read

end
-- ==== Proof.RRead.lean ====
/-
  The plain program's result, entry by entry, is the per-message evaluation of the two-layer graph convolution.

  Reading the program's function of the arguments at row i: the normalization of a message is the product of the
  coefficients of its source and target rows; a layer at an entry is the sum, over the messages delivered to the row,
  of the dense product at the message's source row times the message's normalization, plus the bias.
-/
import proofs.«114599_j73169062855340_2_alg».proof.Proof.RefVal
import proofs.«114599_j73169062855340_2_alg».proof.Proof.LibGcnPieces
import proofs.«114599_j73169062855340_2_alg».proof.Proof.LibGcnFolded
import proofs.«114599_j73169062855340_2_alg».proof.Proof.LibPlainDot
import Idealize.ShloMosaic.Lib.ValueLayout

set_option maxRecDepth 16384

noncomputable section

open scoped BigOperators

namespace Cert.ReferenceIdeal.Read

open Cert.ReferenceIdeal Cert.ReferenceIdeal.Gen Cert.ReferenceIdeal.HostLines
open Idealize.ShloMosaic Idealize.ShloMosaic.ValueIdx Cert.GcnRead

theorem hN : 0 < 100000 := by decide

/-- The zero words and the node-count words the wrap compares with and adds. -/
abbrev zW : IVec S1700000 32 := broadcastInDim S1700000 ![] bcast_S_S1700000 (constantI S_ 32 0#32)
abbrev nW : IVec S1700000 32 := broadcastInDim S1700000 ![] bcast_S_S1700000 (constantI S_ 32 100000#32)

theorem gv_eq : gather_S100000_S1700000x1_S1700000_n_0_n_n_0_1_1
    = RowGather.vecDims 100000 1700000 gather_S100000_S1700000x1_S1700000_n_0_n_n_0_1_1_wf := rfl
theorem g128_eq : gather_S100000x128_S1700000x1_S1700000x128_1_0_n_n_0_1_1128
    = RowGather.rowDims 100000 1700000 128 gather_S100000x128_S1700000x1_S1700000x128_1_0_n_n_0_1_1128_wf := rfl
theorem g1_eq : gather_S100000x1_S1700000x1_S1700000x1_1_0_n_n_0_1_11
    = RowGather.rowDims 100000 1700000 1 gather_S100000x1_S1700000x1_S1700000x1_1_0_n_n_0_1_11_wf := rfl
theorem s128_eq : scatter_S100000x128_S1700000x1_S1700000x128_1_0_0_1
    = RowScatter.rowDims 100000 1700000 128 scatter_S100000x128_S1700000x1_S1700000x128_1_0_0_1_wf := rfl
theorem s1_eq : scatter_S100000x1_S1700000x1_S1700000x1_1_0_0_1
    = RowScatter.rowDims 100000 1700000 1 scatter_S100000x1_S1700000x1_S1700000x1_1_0_0_1_wf := rfl
theorem sv_eq : scatter_S100000_S1700000x1_S1700000_n_0_0_1
    = RowScatter.vecDims 100000 1700000 scatter_S100000_S1700000x1_S1700000_n_0_0_1_wf := rfl
theorem d128_eq : dot_S100000x128_S128x128_S100000x128_1_0_0_1_n_n = DotDims.plain 100000 128 128 := rfl
theorem d1_eq : dot_S100000x128_S128x1_S100000x1_1_0_0_1_n_n = DotDims.plain 100000 128 1 := rfl

/-- A one-row array spread over many rows reads, at (p, q), the row at q. -/
theorem bcast_1b_ab_apply {α : Type} {a b : ℕ} (h : (⟨2, ![1, b]⟩ : Shape).BroadcastsInDim ⟨2, ![a, b]⟩ ![0, 1])
    (v : (⟨2, ![1, b]⟩ : Shape).Idx → α) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- The coefficient vector at a row is the row's coefficient. -/
theorem disV_apply (d : IVec S1700000 32) (r : Fin 100000) : disV d (ix1 r) = coef d r := by
  unfold disV degV colW
  rw [sv_eq]
  exact coefVec_apply _ _ _ _ d r

/-- The normalization of message e: the coefficients of its source and target rows, multiplied. -/
theorem normV_apply (s d : IVec S1700000 32) (e : Fin 1700000) :
    normV (disV d) s d (ix1 e) = coef d (node hN s zW nW e) * coef d (node hN d zW nW e) := by
  unfold normV colW wrapW
  rw [mulf_apply, gv_eq, gatherVecWrapped_apply hN, gatherVecWrapped_apply hN, disV_apply, disV_apply]

/-- The first layer at an entry. -/
theorem layer1_apply (x : FVec Ideal S100000x128 .f32) (w1 : FVec Ideal S128x128 .f32) (b1 : FVec Ideal S128 .f32)
    (s d : IVec S1700000 32) (nrm : FVec Ideal S1700000 .f32) (r : Fin 100000) (j : Fin 128) :
    layer1 x w1 b1 s d nrm (ix2 r j)
      = max ((0 + ∑ e ∈ Finset.univ.filter (fun e : Fin 1700000 => lands d e r),
            (∑ k : Fin 128, x (ix2 (node hN s zW nW e) k) * w1 (ix2 k j)) * nrm (ix1 e)) + b1 (ix1 j)) 0 := by
  unfold layer1 colW wrapW
  rw [maximumf_apply, addf_apply, g128_eq, s128_eq, d128_eq, scatterZero_apply, splat_apply, Ideal.ofBits_zero_f32,
    bcast_1b_ab_apply, LibHostKeepdims.bcast_b_1b_apply]
  refine congrArg (fun t => max ((0 + t) + b1 (ix1 j)) 0) (Finset.sum_congr rfl fun e _ => ?_)
  rw [mulf_apply, gatherWrapped_apply hN, LibHostKeepdims.bcast_a1_ab_apply, LibHostKeepdims.bcast_a_a1_apply]
  exact congrArg (fun t => t * nrm (ix1 e)) (PlainDot.dotGeneral_apply 100000 128 128 none _ x w1 _ j)

/-- The second layer at a row. -/
theorem layer2_apply (h : FVec Ideal S100000x128 .f32) (w2 : FVec Ideal S128x1 .f32) (b2 : FVec Ideal S1 .f32)
    (s d : IVec S1700000 32) (nrm : FVec Ideal S1700000 .f32) (r : Fin 100000) :
    layer2 h w2 b2 s d nrm (ix2 r (0 : Fin 1))
      = (0 + ∑ e ∈ Finset.univ.filter (fun e : Fin 1700000 => lands d e r),
            (∑ k : Fin 128, h (ix2 (node hN s zW nW e) k) * w2 (ix2 k (0 : Fin 1))) * nrm (ix1 e)) + b2 (ix1 (0 : Fin 1)) := by
  unfold layer2 colW wrapW
  rw [addf_apply, g1_eq, s1_eq, d1_eq, scatterZero_apply, bcast_1b_ab_apply, LibHostKeepdims.bcast_b_1b_apply]
  refine congrArg (fun t => (0 + t) + b2 (ix1 (0 : Fin 1))) (Finset.sum_congr rfl fun e _ => ?_)
  rw [mulf_apply, gatherWrapped_apply hN, LibHostKeepdims.bcast_a_a1_apply]
  exact congrArg (fun t => t * nrm (ix1 e)) (PlainDot.dotGeneral_apply 100000 128 1 none _ h w2 _ (0 : Fin 1))

variable (x : FVec Ideal S100000x128 .f32) (ei : IVec S2x1600000 32) (w1 : FVec Ideal S128x128 .f32) (b1 : FVec Ideal S128 .f32)
  (w2 : FVec Ideal S128x1 .f32) (b2 : FVec Ideal S1 .f32)

/-- The spec's data read off the arguments. -/
abbrev S : Fin 1700000 → Fin 100000 := node hN (srcW ei) zW nW
abbrev Dn : Fin 1700000 → Fin 100000 := node hN (dstW ei) zW nW
abbrev L : Fin 1700000 → Fin 100000 → Prop := lands (dstW ei)
abbrev dis : Fin 100000 → EReal := coef (dstW ei)
abbrev X : Fin 100000 → Fin 128 → EReal := fun i k => x (ix2 i k)
abbrev W1 : Fin 128 → Fin 128 → EReal := fun k j => w1 (ix2 k j)
abbrev B1 : Fin 128 → EReal := fun j => b1 (ix1 j)
abbrev W2 : Fin 128 → EReal := fun k => w2 (ix2 k (0 : Fin 1))
abbrev B2 : EReal := b2 (ix1 (0 : Fin 1))

/-- THE PROGRAM'S RESULT at row i is the per-message evaluation at i. -/
theorem value_apply (i : Fin 100000) :
    value x ei w1 b1 w2 b2 (ix2 i (0 : Fin 1))
      = GcnSpec.perMessage (S ei) (Dn ei) (L ei) (dis ei) (X x) (W1 w1) (B1 b1) (W2 w2) (B2 b2) i := by
  unfold value
  rw [layer2_apply]
  unfold GcnSpec.perMessage GcnSpec.into GcnSpec.norm
  refine congrArg (fun t => (0 + t) + b2 (ix1 (0 : Fin 1))) (Finset.sum_congr rfl fun e _ => ?_)
  rw [normV_apply]
  refine congrArg₂ (· * ·) (Finset.sum_congr rfl fun k _ => ?_) rfl
  rw [layer1_apply]
  unfold GcnSpec.refHidden GcnSpec.into GcnSpec.norm
  refine congrArg (fun t => max ((0 + t) + b1 (ix1 k)) 0 * w2 (ix2 k (0 : Fin 1))) (Finset.sum_congr rfl fun e' _ => ?_)
  rw [normV_apply]

end Cert.ReferenceIdeal.Read

end
-- ==== Proof.Bridge.lean ====
/-
  The two programs compute one function.

  The tiled program's result is the folded evaluation of the two-layer graph convolution and the plain program's the
  per-message evaluation, over the same data read off the same arguments: the same source and target words (both
  programs form them by the same lines), hence the same delivery relation, source rows and coefficients. A message
  delivered to row i has target row i, and the coefficients are nonnegative reals, so the two evaluations agree.
-/
import proofs.«114599_j73169062855340_2_alg».proof.Proof.KRead
import proofs.«114599_j73169062855340_2_alg».proof.Proof.RRead

set_option maxRecDepth 16384

noncomputable section

open scoped BigOperators

namespace Cert.Bridge

open Idealize.ShloMosaic Idealize.ShloMosaic.ValueIdx Cert.GcnRead

/-- Both programs form the same source words. -/
theorem src_eq (ei : IVec Cert.KernelIdeal.S2x1600000 32) :
    Cert.KernelIdeal.HostLines.srcW ei = Cert.ReferenceIdeal.HostLines.srcW ei := rfl
/-- Both programs form the same target words. -/
theorem dst_eq (ei : IVec Cert.KernelIdeal.S2x1600000 32) :
    Cert.KernelIdeal.HostLines.dstW ei = Cert.ReferenceIdeal.HostLines.dstW ei := rfl

/-- THE TWO PROGRAMS' FUNCTIONS OF THE ARGUMENTS ARE EQUAL. -/
theorem value_eq (x : FVec Ideal Cert.KernelIdeal.S100000x128 .f32) (ei : IVec Cert.KernelIdeal.S2x1600000 32)
    (w1 : FVec Ideal Cert.KernelIdeal.S128x128 .f32) (b1 : FVec Ideal Cert.KernelIdeal.S128 .f32)
    (w2 : FVec Ideal Cert.KernelIdeal.S128x1 .f32) (b2 : FVec Ideal Cert.KernelIdeal.S1 .f32) :
    Cert.KernelIdeal.Chain.value x ei w1 b1 w2 b2 = Cert.ReferenceIdeal.HostLines.value x ei w1 b1 w2 b2 := by
  funext j
  obtain ⟨i, q, rfl⟩ : ∃ (i : Fin 100000) (q : Fin 1), j = ix2 i q := ⟨j 0, j 1, eq_ix2 j⟩
  obtain rfl : q = 0 := Subsingleton.elim q 0
  refine (Cert.KernelIdeal.Read.value_apply x ei w1 b1 w2 b2 i).trans ?_
  refine Eq.trans ?_ (Cert.ReferenceIdeal.Read.value_apply x ei w1 b1 w2 b2 i).symm
  have hs : Cert.KernelIdeal.Read.S ei = Cert.ReferenceIdeal.Read.S ei := by
    unfold Cert.KernelIdeal.Read.S Cert.ReferenceIdeal.Read.S
    rw [src_eq]
  have hl : Cert.KernelIdeal.Read.L ei = Cert.ReferenceIdeal.Read.L ei := by
    unfold Cert.KernelIdeal.Read.L Cert.ReferenceIdeal.Read.L
    rw [dst_eq]
  have hd : Cert.KernelIdeal.Read.dis ei = Cert.ReferenceIdeal.Read.dis ei := by
    unfold Cert.KernelIdeal.Read.dis Cert.ReferenceIdeal.Read.dis
    rw [dst_eq]
  have hD : ∀ (e : Fin 1700000) (i : Fin 100000), Cert.ReferenceIdeal.Read.L ei e i → Cert.ReferenceIdeal.Read.Dn ei e = i :=
    fun e i h => node_of_lands Cert.ReferenceIdeal.Read.hN _ _ _ e i rfl h
  have h0 : ∀ i, 0 ≤ Cert.ReferenceIdeal.Read.dis ei i := fun i => (coef_bounds _ i).1
  have ht : ∀ i, Cert.ReferenceIdeal.Read.dis ei i ≠ ⊤ := fun i => (coef_bounds _ i).2
  have key := GcnSpec.folded_eq (Cert.ReferenceIdeal.Read.S ei) (Cert.ReferenceIdeal.Read.Dn ei) (Cert.ReferenceIdeal.Read.L ei)
    (Cert.ReferenceIdeal.Read.dis ei) (Cert.ReferenceIdeal.Read.X x) (Cert.ReferenceIdeal.Read.W1 w1) (Cert.ReferenceIdeal.Read.B1 b1)
    (Cert.ReferenceIdeal.Read.W2 w2) (Cert.ReferenceIdeal.Read.B2 b2) hD h0 ht i
  refine Eq.trans ?_ key
  have hfold : ∀ (S₁ S₂ : Fin 1700000 → Fin 100000) (d₁ d₂ : Fin 100000 → EReal), S₁ = S₂ → d₁ = d₂ →
      GcnSpec.folded S₁ (Cert.ReferenceIdeal.Read.L ei) d₁ (Cert.ReferenceIdeal.Read.X x) (Cert.ReferenceIdeal.Read.W1 w1)
        (Cert.ReferenceIdeal.Read.B1 b1) (Cert.ReferenceIdeal.Read.W2 w2) (Cert.ReferenceIdeal.Read.B2 b2) i
      = GcnSpec.folded S₂ (Cert.ReferenceIdeal.Read.L ei) d₂ (Cert.ReferenceIdeal.Read.X x) (Cert.ReferenceIdeal.Read.W1 w1)
        (Cert.ReferenceIdeal.Read.B1 b1) (Cert.ReferenceIdeal.Read.W2 w2) (Cert.ReferenceIdeal.Read.B2 b2) i := by
    intro S₁ S₂ d₁ d₂ e₁ e₂; rw [e₁, e₂]
  exact hfold _ _ _ _ hs hd

end Cert.Bridge

end
-- ==== Proof.lean ====
/-
  A two-layer graph convolution over 100 000 nodes and 1 700 000 messages (the given edges and one self-loop per
  node), tiled in three stages with the message passing on the host between them, against the plain program that
  attaches the symmetric normalization to every message.

  The tiled program folds the coefficient of a message's source row into the features before the messages are formed
  and applies the coefficient of the target row after the messages are added up; the plain program multiplies every
  message by the product of the two coefficients. A coefficient is the inverse square root of a positive degree or
  zero, a nonnegative real, and such a factor goes through a finite sum of extended reals; a message delivered to a row
  has that row as its target; so the two evaluations agree entry by entry for arbitrary features, weights and
  biases (the finiteness of the inputs is not used). The changes of float format in the tiled stages are the
  identity at the ideal values and their matrix products are the exact sums of products the plain program's are.

  The frames of the two tiled programs are the generated ones; the plain program's frame is its run with the result
  dropped; the idealization rewrote nothing.
-/
import proofs.«114599_j73169062855340_2_alg».proof.Defs
import proofs.«114599_j73169062855340_2_alg».proof.Proof.Gen.Kernel
import proofs.«114599_j73169062855340_2_alg».proof.Proof.Gen.Kernel.Skeleton
import proofs.«114599_j73169062855340_2_alg».proof.Proof.Gen.Kernel.Launch
import proofs.«114599_j73169062855340_2_alg».proof.Proof.Gen.Kernel.Points
import proofs.«114599_j73169062855340_2_alg».proof.Proof.Gen.Kernel.Frame
import proofs.«114599_j73169062855340_2_alg».proof.Proof.Gen.KernelIdeal
import proofs.«114599_j73169062855340_2_alg».proof.Proof.Gen.KernelIdeal.Skeleton
import proofs.«114599_j73169062855340_2_alg».proof.Proof.Gen.KernelIdeal.Launch
import proofs.«114599_j73169062855340_2_alg».proof.Proof.Gen.KernelIdeal.Points
import proofs.«114599_j73169062855340_2_alg».proof.Proof.Gen.KernelIdeal.Frame
import proofs.«114599_j73169062855340_2_alg».proof.Proof.Gen.ReferenceIdeal
import proofs.«114599_j73169062855340_2_alg».proof.Proof.Gen.Pre_finite_inputs
import proofs.«114599_j73169062855340_2_alg».proof.Proof.FrameVal
import proofs.«114599_j73169062855340_2_alg».proof.Proof.RefRun
import proofs.«114599_j73169062855340_2_alg».proof.Proof.RefLines
import proofs.«114599_j73169062855340_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with the result array at the tiled program's function of the arguments: the tiled program by
    its frame run and the chain through its stages, the plain program by its run, its lines read from the launch
    contents, the agreement of the arguments, and the equality of the two functions. -/
theorem algebraic : Cert.algebraic_KernelIdeal_ReferenceIdeal := by
  intro m ρ m' ρ' _ hagree
  refine ⟨fun c => Cert.KernelIdeal.Chain.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.GenP.frame_val (F := Ideal) m ρ)
    obtain ⟨h0, h1, h2, h3, h4, h5, hv⟩ := h c
    exact ⟨hv.trans (Cert.KernelIdeal.Chain.result_eq m ρ c), h0, h1, h2, h3, h4, h5⟩
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5⟩ := hagree c
    refine (Cert.ReferenceIdeal.HostLines.lines (launchContents m' c)).trans ?_
    show Cert.ReferenceIdeal.HostLines.value
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [a0, a1, a2, a3, a4, a5]
    exact (Cert.Bridge.value_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
